-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096 : Shape := ⟨2, ![8, 4096]⟩
abbrev S8x512x3 : Shape := ⟨3, ![8, 512, 3]⟩
abbrev S8x512 : Shape := ⟨2, ![8, 512]⟩
abbrev S8x512x1 : Shape := ⟨3, ![8, 512, 1]⟩
abbrev S8x1x512 : Shape := ⟨3, ![8, 1, 512]⟩
abbrev S8x512x512 : Shape := ⟨3, ![8, 512, 512]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x512x3, .f32⟩
  | .local _ .vmem, ⟨3, _⟩ => ⟨S8x512x3, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512x3, .f32⟩
  | .local _ .vmem, ⟨8, _⟩ => ⟨S8x512x3, .f32⟩
  | .local _ .vmem, ⟨9, _⟩ => ⟨S8x512x3, .f32⟩
  | .local _ .vmem, ⟨10, _⟩ => ⟨S8x512x3, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x3_S8x512x3_0_0_0 : ∀ a, (![0, 0, 0] : Fin 3 → Nat) a + S8x512x3.size a ≤ S8x512x3.size a
  h_S8x512x3 : 0 < S8x512x3.numel
  reduces_S8x512x3_S8x512 : S8x512x3.Reduces [2] S8x512
  shapeCasts_S8x512_S8x512x1 : S8x512.ShapeCasts S8x512x1
  shapeCasts_S8x512_S8x1x512 : S8x512.ShapeCasts S8x1x512
  bitsLt_bf16_f32 : FTy.bits .bf16 < FTy.bits .f32
  broadcasts_S8x512x1_S8x512x512 : S8x512x1.Broadcasts S8x512x512
  broadcasts_S8x1x512_S8x512x512 : S8x1x512.Broadcasts S8x512x512
  reduces_S8x512x512_S8x512 : S8x512x512.Reduces [2] S8x512
  reducesTo_S8x4096_S_d0_1 : S8x4096.ReducesTo [0, 1] S_
  h_S_ : 0 < S_.numel
  dot_S8x512x3_S8x512x3_S8x512x512_2_2_1_1_0_0_wf : DotDims.WF S8x512x3 S8x512x3 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x3.size a ≤ S8x4096x3.size a
  hwx0_1 : ∀ i : grid0.Coords, EltTy.bits .f32 = 32 ∨ (Rect.block (s := S8x4096x3) S8x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x3.size a ≤ S8x4096x3.size a
  hwx1_0 : ∀ i : grid1.Coords, EltTy.bits .f32 = 32 ∨ (Rect.block (s := S8x4096x3) S8x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x3.size a ≤ S8x4096x3.size a
  hwx1_1 : ∀ i : grid1.Coords, EltTy.bits .f32 = 32 ∨ (Rect.block (s := S8x4096x3) S8x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)

variable [Facts₀]

def dot_S8x512x3_S8x512x3_S8x512x512_2_2_1_1_0_0 : DotDims S8x512x3 S8x512x3 S8x512x512 where
  lhsContracting := [2]
  rhsContracting := [2]
  lhsNonContracting := [1]
  rhsNonContracting := [1]
  lhsBatch := [0]
  rhsBatch := [0]
  wf := dot_S8x512x3_S8x512x3_S8x512x512_2_2_1_1_0_0_wf

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S8x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.FrKernel.Base.lean ====
/-
  The frame of the nearest-neighbour kernel, shared definitions: a point `t` of the 8 × 8 grid is (query tile t / 8, key tile
  t % 8); the body resets its running-minimum scratch where the key tile is 0, folds the tile's minimum into it at
  every point, and copies it to the output block where the key tile is 7 (elsewhere the output window is idle and
  is not written back). Stated for both pallas_calls (regions 0 and 1), at any float instance.
-/
import proofs.«131507_j34351148433808_1_alg».proof.Proof.Gen.Kernel.Launch
import proofs.«131507_j34351148433808_1_alg».proof.Proof.Gen.Kernel.Skeleton
import proofs.«131507_j34351148433808_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the blocks, the branch conditions, the idle points, the memrefs -/

section Region0
variable (V : (c : Dev nD) → (b : Ref sig .tc) → Buf (Elt F) ((c : Thread nD τ).loc b))

/-- Window `w`'s block at point `t`, read off its array at the region's entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- The first branch of the body (the accumulator's reset) is taken where the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second branch (the copy of the accumulator to the output block) is taken where the second grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-- One staging buffer of the output window, through which its contents are stated. -/
abbrev VO0_2 : View sig .tc .vmem S8x512 .f32 := (Memref.whole cc0_stg2_0 : Memref sig .tc .vmem S8x512 .f32).view
abbrev ms0_0 (t : Fin cfg0.N) : Memref sig .tc .vmem S8x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
/-- The running-minimum scratch, a whole scoped buffer of the kernel's own. -/
abbrev scM0_0 : Memref sig .tc .vmem S8x512 .f32 := Memref.whole cc0_scratch0
abbrev VS0_0 : View sig .tc .vmem S8x512 .f32 := scM0_0.view

/-- The core's scoped buffers other than this region's staging buffers and its scratch (the other region's), each at
    some contents: they ride through the region untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's class invariant splits into the scratch at some contents, the other scoped buffers, and the generator register. -/
theorem PhiA0_split (c : Dev nD) :
    (Pipeline.ΦA spec0 c : sProp 𝕄) ⊢ iprop(((∃ d, owns (c : Thread nD τ) scM0_0 fullShare d) ∗ Rest0 c) ∗ (∃ r, prngReg c r)) := by
  unfold Pipeline.ΦA Rest0; rw [scopedRest0_eq]; simp only [scM0_0, owns_whole]
  iintro ⟨⟨HS, R0, R1, R2, R3, R4, R5, R6⟩, Hg⟩
  isplitr [Hg]
  · isplitl [HS]; · iexact HS
    isplitl [R0]; · iexact R0
    isplitl [R1]; · iexact R1
    isplitl [R2]; · iexact R2
    isplitl [R3]; · iexact R3
    isplitl [R4]; · iexact R4
    isplitl [R5]; · iexact R5
    iexact R6
  · iexact Hg
theorem PhiA0_join (c : Dev nD) :
    (iprop(((∃ d, owns (c : Thread nD τ) scM0_0 fullShare d) ∗ Rest0 c) ∗ (∃ r, prngReg c r)) : sProp 𝕄) ⊢ Pipeline.ΦA spec0 c := by
  unfold Pipeline.ΦA Rest0; rw [scopedRest0_eq]; simp only [scM0_0, owns_whole]
  iintro ⟨⟨HS, R0, R1, R2, R3, R4, R5, R6⟩, Hg⟩
  isplitr [Hg]
  ·
    isplitl [HS]; · iexact HS
    isplitl [R0]; · iexact R0
    isplitl [R1]; · iexact R1
    isplitl [R2]; · iexact R2
    isplitl [R3]; · iexact R3
    isplitl [R4]; · iexact R4
    isplitl [R5]; · iexact R5
    iexact R6
  · iexact Hg

/-! # Region 1: the blocks, the branch conditions, the idle points, the memrefs -/

section Region1
variable (V : (c : Dev nD) → (b : Ref sig .tc) → Buf (Elt F) ((c : Thread nD τ).loc b))

/-- Window `w`'s block at point `t`, read off its array at the region's entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first branch of the body (the accumulator's reset) is taken where the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (the copy of the accumulator to the output block) is taken where the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-- One staging buffer of the output window, through which its contents are stated. -/
abbrev VO1_2 : View sig .tc .vmem S8x512 .f32 := (Memref.whole cc1_stg2_0 : Memref sig .tc .vmem S8x512 .f32).view
abbrev ms1_0 (t : Fin cfg1.N) : Memref sig .tc .vmem S8x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
/-- The running-minimum scratch, a whole scoped buffer of the kernel's own. -/
abbrev scM1_0 : Memref sig .tc .vmem S8x512 .f32 := Memref.whole cc1_scratch0
abbrev VS1_0 : View sig .tc .vmem S8x512 .f32 := scM1_0.view

/-- The core's scoped buffers other than this region's staging buffers and its scratch (the other region's), each at
    some contents: they ride through the region untouched. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region's class invariant splits into the scratch at some contents, the other scoped buffers, and the generator register. -/
theorem PhiA1_split (c : Dev nD) :
    (Pipeline.ΦA spec1 c : sProp 𝕄) ⊢ iprop(((∃ d, owns (c : Thread nD τ) scM1_0 fullShare d) ∗ Rest1 c) ∗ (∃ r, prngReg c r)) := by
  unfold Pipeline.ΦA Rest1; rw [scopedRest1_eq]; simp only [scM1_0, owns_whole]
  iintro ⟨⟨R0, R1, R2, R3, R4, R5, R6, HS⟩, Hg⟩
  isplitr [Hg]
  · isplitl [HS]; · iexact HS
    isplitl [R0]; · iexact R0
    isplitl [R1]; · iexact R1
    isplitl [R2]; · iexact R2
    isplitl [R3]; · iexact R3
    isplitl [R4]; · iexact R4
    isplitl [R5]; · iexact R5
    iexact R6
  · iexact Hg
theorem PhiA1_join (c : Dev nD) :
    (iprop(((∃ d, owns (c : Thread nD τ) scM1_0 fullShare d) ∗ Rest1 c) ∗ (∃ r, prngReg c r)) : sProp 𝕄) ⊢ Pipeline.ΦA spec1 c := by
  unfold Pipeline.ΦA Rest1; rw [scopedRest1_eq]; simp only [scM1_0, owns_whole]
  iintro ⟨⟨HS, R0, R1, R2, R3, R4, R5, R6⟩, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    iexact HS
  · iexact Hg

end Cert.Kernel.Fr

end
-- ==== Proof.FrKernel.Run0A.lean ====
/-
  The kernel body of pallas_call 0 run once, at a point where the key tile is 0 (the scratch is reset to +∞ first; the output window is idle): on whole
  staging memrefs holding the two input blocks, it runs to its end leaving the inputs as they were and the scratch (and,
  at the last key tile, the output block) overwritten by the pieces the symbolic run finds.
-/
import proofs.«131507_j34351148433808_1_alg».proof.Proof.FrKernel.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x3 .f32) (x1 : Vec F S8x512x3 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨[], ?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrKernel.Run0B.lean ====
/-
  The kernel body of pallas_call 0 run once, at a point where the key tile is neither 0 nor 7 (the scratch is carried; the output window is idle): on whole
  staging memrefs holding the two input blocks, it runs to its end leaving the inputs as they were and the scratch (and,
  at the last key tile, the output block) overwritten by the pieces the symbolic run finds.
-/
import proofs.«131507_j34351148433808_1_alg».proof.Proof.FrKernel.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨[], ?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrKernel.Run0C.lean ====
/-
  The kernel body of pallas_call 0 run once, at a point where the key tile is 7 (the scratch is carried, then copied into the output block): on whole
  staging memrefs holding the two input blocks, it runs to its end leaving the inputs as they were and the scratch (and,
  at the last key tile, the output block) overwritten by the pieces the symbolic run finds.
-/
import proofs.«131507_j34351148433808_1_alg».proof.Proof.FrKernel.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.FrKernel.Reg0.lean ====
/-
  Region 0 (pallas_call 0) point by point: what each of the three kinds of point leaves in the output's staging
  buffer and in the running-minimum scratch (the pieces the runs found, read back), those contents by recursion on the
  point (a point whose key tile is not 0 starts from the scratch the point before left), the region's invariant (the
  scratch at those contents, the other scoped buffers and the generator register riding along), the proof data, and
  the body obligation at every point.
-/
import proofs.«131507_j34351148433808_1_alg».proof.Proof.FrKernel.Run0A
import proofs.«131507_j34351148433808_1_alg».proof.Proof.FrKernel.Run0B
import proofs.«131507_j34351148433808_1_alg».proof.Proof.FrKernel.Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Where the key tile is 0 (and not 7) nothing is stored into the output block: a placeholder nothing consults. -/
def out0_A_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i) (x0 : Vec F S8x512x3 .f32) (x1 : Vec F S8x512x3 .f32) : Vec F S8x512 .f32 :=
  VO0_2.read (Elt F) (VO0_2.writes (Elt F) VO0_2.junk (kernelRun0_A c i arg2 harg2 arg3 harg3 arg4 harg4 arg5 harg5 hc0 hc1 x0 x1).1)
theorem scover0_A_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i) (x0 : Vec F S8x512x3 .f32) (x1 : Vec F S8x512x3 .f32) (y : S8x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S8x512.size (by sl_kernel_rfl) y
/-- What such a point leaves in the scratch. -/
def sout0_A_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i) (x0 : Vec F S8x512x3 .f32) (x1 : Vec F S8x512x3 .f32) : Vec F S8x512 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i) (x0 : Vec F S8x512x3 .f32) (x1 : Vec F S8x512x3 .f32) (xs0 : Vec F S8x512 .f32) : Vec F S8x512 .f32 :=
  VO0_2.read (Elt F) (VO0_2.writes (Elt F) VO0_2.junk (kernelRun0_B c i arg2 harg2 arg3 harg3 arg4 harg4 arg5 harg5 hc0 hc1 x0 x1 xs0).1)
theorem scover0_B_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i) (x0 : Vec F S8x512x3 .f32) (x1 : Vec F S8x512x3 .f32) (xs0 : Vec F S8x512 .f32) (y : S8x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S8x512.size (by sl_kernel_rfl) y
def sout0_B_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i) (x0 : Vec F S8x512x3 .f32) (x1 : Vec F S8x512x3 .f32) (xs0 : Vec F S8x512 .f32) : Vec F S8x512 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i) (x0 : Vec F S8x512x3 .f32) (x1 : Vec F S8x512x3 .f32) (xs0 : Vec F S8x512 .f32) (y : S8x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S8x512.size (by sl_kernel_rfl) y
/-- Where the key tile is 7 the output block is stored whole. -/
def out0_C_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i) (x0 : Vec F S8x512x3 .f32) (x1 : Vec F S8x512x3 .f32) (xs0 : Vec F S8x512 .f32) : Vec F S8x512 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i) (x0 : Vec F S8x512x3 .f32) (x1 : Vec F S8x512x3 .f32) (xs0 : Vec F S8x512 .f32) (y : S8x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S8x512.size (by sl_kernel_rfl) y
def sout0_C_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i) (x0 : Vec F S8x512x3 .f32) (x1 : Vec F S8x512x3 .f32) (xs0 : Vec F S8x512 .f32) : Vec F S8x512 .f32 :=
  VS0_0.read (Elt F) (VS0_0.writes (Elt F) VS0_0.junk (kernelRun0_C c i arg2 harg2 arg3 harg3 arg4 harg4 arg5 harg5 hc0 hc1 x0 x1 xs0).2.1)

/-- What the output's staging buffer and the scratch hold after the body at position `n`, by recursion on `n`. -/
def outsAt0 (c : Dev nD) : (n : ℕ) → n < cfg0.N → Vec F S8x512 .f32 × Vec F S8x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the scratch at what the
    point before left in it, the other scoped buffers at some contents, the generator register at some state. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare ((outsAt0 V c n hn).2) ∗ Rest0 c) ∗ (∃ r, prngReg c r)) := rfl
theorem PhiS0_pos (c : Dev nD) (n : ℕ) (h : n ≤ cfg0.N) (hz : n ≠ 0) :
    PhiS0 V c n h = iprop((owns (c : Thread nD τ) scM0_0 fullShare ((outsAt0 V c (n - 1) (by omega)).2) ∗ Rest0 c) ∗ (∃ r, prngReg c r)) := by
  cases n with
  | zero => exact absurd rfl hz
  | succ n => rfl

/-- The proof data of pipeline 0 on core `c`, at the region's entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point's key tile says which of the three runs
    applies; the invariant hands the run the scratch (at anything at the very first point, else at what the point before
    left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · by_cases h1 : t.val % 8 = 7
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_split (F := F) c) $$ HΦ
        icases HΦ' with ⟨⟨HS0, HR⟩, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitr [Hg]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitr [Hg]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht]
  refine BIBase.Entails.trans ?_ (PhiA0_join (F := F) c)
  iintro ⟨⟨HS0, HR⟩, Hg⟩
  isplitr [Hg]
  · isplitl [HS0]; · iexists _; iexact HS0
    iexact HR
  · iexact Hg

end

end Cert.Kernel.Fr

end
-- ==== Proof.FrKernel.Run1A.lean ====
/-
  The kernel body of pallas_call 1 run once, at a point where the key tile is 0 (the scratch is reset to +∞ first; the output window is idle): on whole
  staging memrefs holding the two input blocks, it runs to its end leaving the inputs as they were and the scratch (and,
  at the last key tile, the output block) overwritten by the pieces the symbolic run finds.
-/
import proofs.«131507_j34351148433808_1_alg».proof.Proof.FrKernel.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512x3 .f32) (x1 : Vec F S8x512x3 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨[], ?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrKernel.Run1B.lean ====
/-
  The kernel body of pallas_call 1 run once, at a point where the key tile is neither 0 nor 7 (the scratch is carried; the output window is idle): on whole
  staging memrefs holding the two input blocks, it runs to its end leaving the inputs as they were and the scratch (and,
  at the last key tile, the output block) overwritten by the pieces the symbolic run finds.
-/
import proofs.«131507_j34351148433808_1_alg».proof.Proof.FrKernel.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨[], ?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.FrKernel.Run1C.lean ====
/-
  The kernel body of pallas_call 1 run once, at a point where the key tile is 7 (the scratch is carried, then copied into the output block): on whole
  staging memrefs holding the two input blocks, it runs to its end leaving the inputs as they were and the scratch (and,
  at the last key tile, the output block) overwritten by the pieces the symbolic run finds.
-/
import proofs.«131507_j34351148433808_1_alg».proof.Proof.FrKernel.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.FrKernel.Reg1.lean ====
/-
  Region 1 (pallas_call 1) point by point: what each of the three kinds of point leaves in the output's staging
  buffer and in the running-minimum scratch (the pieces the runs found, read back), those contents by recursion on the
  point (a point whose key tile is not 0 starts from the scratch the point before left), the region's invariant (the
  scratch at those contents, the other scoped buffers and the generator register riding along), the proof data, and
  the body obligation at every point.
-/
import proofs.«131507_j34351148433808_1_alg».proof.Proof.FrKernel.Run1A
import proofs.«131507_j34351148433808_1_alg».proof.Proof.FrKernel.Run1B
import proofs.«131507_j34351148433808_1_alg».proof.Proof.FrKernel.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Where the key tile is 0 (and not 7) nothing is stored into the output block: a placeholder nothing consults. -/
def out1_A_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i) (x0 : Vec F S8x512x3 .f32) (x1 : Vec F S8x512x3 .f32) : Vec F S8x512 .f32 :=
  VO1_2.read (Elt F) (VO1_2.writes (Elt F) VO1_2.junk (kernelRun1_A c i arg2 harg2 arg3 harg3 arg4 harg4 arg5 harg5 hc0 hc1 x0 x1).1)
theorem scover1_A_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i) (x0 : Vec F S8x512x3 .f32) (x1 : Vec F S8x512x3 .f32) (y : S8x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S8x512.size (by sl_kernel_rfl) y
/-- What such a point leaves in the scratch. -/
def sout1_A_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i) (x0 : Vec F S8x512x3 .f32) (x1 : Vec F S8x512x3 .f32) : Vec F S8x512 .f32 :=
  VS1_0.read (Elt F) (VS1_0.writes (Elt F) VS1_0.junk (kernelRun1_A c i arg2 harg2 arg3 harg3 arg4 harg4 arg5 harg5 hc0 hc1 x0 x1).2.1)

def out1_B_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i) (x0 : Vec F S8x512x3 .f32) (x1 : Vec F S8x512x3 .f32) (xs0 : Vec F S8x512 .f32) : Vec F S8x512 .f32 :=
  VO1_2.read (Elt F) (VO1_2.writes (Elt F) VO1_2.junk (kernelRun1_B c i arg2 harg2 arg3 harg3 arg4 harg4 arg5 harg5 hc0 hc1 x0 x1 xs0).1)
theorem scover1_B_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i) (x0 : Vec F S8x512x3 .f32) (x1 : Vec F S8x512x3 .f32) (xs0 : Vec F S8x512 .f32) (y : S8x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S8x512.size (by sl_kernel_rfl) y
def sout1_B_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i) (x0 : Vec F S8x512x3 .f32) (x1 : Vec F S8x512x3 .f32) (xs0 : Vec F S8x512 .f32) : Vec F S8x512 .f32 :=
  VS1_0.read (Elt F) (VS1_0.writes (Elt F) VS1_0.junk (kernelRun1_B c i arg2 harg2 arg3 harg3 arg4 harg4 arg5 harg5 hc0 hc1 x0 x1 xs0).2.1)

theorem cover1_C_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i) (x0 : Vec F S8x512x3 .f32) (x1 : Vec F S8x512x3 .f32) (xs0 : Vec F S8x512 .f32) (y : S8x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x512.size (by sl_kernel_rfl) y
/-- Where the key tile is 7 the output block is stored whole. -/
def out1_C_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i) (x0 : Vec F S8x512x3 .f32) (x1 : Vec F S8x512x3 .f32) (xs0 : Vec F S8x512 .f32) : Vec F S8x512 .f32 :=
  VO1_2.read (Elt F) (VO1_2.writes (Elt F) VO1_2.junk (kernelRun1_C c i arg2 harg2 arg3 harg3 arg4 harg4 arg5 harg5 hc0 hc1 x0 x1 xs0).1)
theorem scover1_C_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i) (x0 : Vec F S8x512x3 .f32) (x1 : Vec F S8x512x3 .f32) (xs0 : Vec F S8x512 .f32) (y : S8x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S8x512.size (by sl_kernel_rfl) y
def sout1_C_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i) (x0 : Vec F S8x512x3 .f32) (x1 : Vec F S8x512x3 .f32) (xs0 : Vec F S8x512 .f32) : Vec F S8x512 .f32 :=
  VS1_0.read (Elt F) (VS1_0.writes (Elt F) VS1_0.junk (kernelRun1_C c i arg2 harg2 arg3 harg3 arg4 harg4 arg5 harg5 hc0 hc1 x0 x1 xs0).2.1)

/-- What the output's staging buffer and the scratch hold after the body at position `n`, by recursion on `n`. -/
def outsAt1 (c : Dev nD) : (n : ℕ) → n < cfg1.N → Vec F S8x512 .f32 × Vec F S8x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the scratch at what the
    point before left in it, the other scoped buffers at some contents, the generator register at some state. -/
def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1_0 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop((owns (c : Thread nD τ) scM1_0 fullShare ((outsAt1 V c (n - 1) (by omega)).2) ∗ Rest1 c) ∗ (∃ r, prngReg c r)) := by
  cases n with
  | zero => exact absurd rfl hz
  | succ n => rfl

/-- The proof data of pipeline 1 on core `c`, at the region's entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's key tile says which of the three runs
    applies; the invariant hands the run the scratch (at anything at the very first point, else at what the point before
    left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · by_cases h1 : t.val % 8 = 7
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_split (F := F) c) $$ HΦ
        icases HΦ' with ⟨⟨HS0, HR⟩, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitr [Hg]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitr [Hg]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitr [Hg]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitr [Hg]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht]
  refine BIBase.Entails.trans ?_ (PhiA1_join (F := F) c)
  iintro ⟨⟨HS0, HR⟩, Hg⟩
  isplitr [Hg]
  · isplitl [HS0]; · iexists _; iexact HS0
    iexact HR
  · iexact Hg

end

end Cert.Kernel.Fr

end
-- ==== Proof.FrKernel.Main.lean ====
/-
  The whole run of @main: region 0, region 1, then the nine host operations that form the two means and add them. The
  buffers' contents at each boundary are named — at launch, after region 0 (its arrays at what the pipeline's write-backs
  leave, everything else untouched), after region 1, after the host operations — and the run ends with every unscoped
  buffer at the last of these; in particular the result buffer, and the two argument arrays as launched (no region and
  no host operation writes them: each is an input window of both regions).
-/
import proofs.«131507_j34351148433808_1_alg».proof.Proof.FrKernel.Reg0
import proofs.«131507_j34351148433808_1_alg».proof.Proof.FrKernel.Reg1
import proofs.«131507_j34351148433808_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (region 0's entry). -/
abbrev W0 : Dev nD → Valuation τ sig (Elt F) := fun c b => m (c, b)
abbrev V1 : (c : Dev nD) → (b : Ref sig .tc) → Buf (Elt F) ((c : Thread nD τ).loc b) := fun c b => W0 m c b
/-- At region 0's exit (region 1's entry). -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)
/-- After the host operations: the end. -/
abbrev W5 : Dev nD → Valuation τ sig (Elt F) := fun c => StableHlo.after hostOps2 (W4 m c)

/-- The first argument array ends as launched. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W2 m c (Proc.devRef .tc main_arg0) := (W4_arr m c 1).trans (((dat1 (V2 m) c).arrAt_in 1 rfl _).trans (A_eq1 (V2 m) c 1))
    _ = W0 m c (Proc.devRef .tc main_arg0) := (W2_arr m c 0).trans (((dat0 (V1 m) c).arrAt_in 0 rfl _).trans (A_eq0 (V1 m) c 0))
    _ = m ((c : Thread nD τ).loc main_arg0) := rfl
/-- The second argument array ends as launched. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W2 m c (Proc.devRef .tc main_arg1) := (W4_arr m c 0).trans (((dat1 (V2 m) c).arrAt_in 0 rfl _).trans (A_eq1 (V2 m) c 0))
    _ = W0 m c (Proc.devRef .tc main_arg1) := (W2_arr m c 1).trans (((dat0 (V1 m) c).arrAt_in 1 rfl _).trans (A_eq0 (V1 m) c 1))
    _ = m ((c : Thread nD τ).loc main_arg1) := rfl

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered with every unscoped buffer at `W0`, left with them at `W2`; its
    arrays are split out of the unscoped buffers and put back at their exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W4`; its
    arrays are split out of the unscoped buffers and put back at their exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m), .region (reg1 m), .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- At the compiled mesh, from any memory with zero counters: every weakly fair execution of @main terminates, nothing
    faulting, and every final state has every unscoped buffer of each core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (StableHlo.after hostOps2 (W4 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame claim at any float instance: the run ends with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

end Cert.Kernel.Fr

end
-- ==== Proof.FrKernelIdeal.Base.lean ====
/-
  The frame of the nearest-neighbour kernel, shared definitions: a point `t` of the 8 × 8 grid is (query tile t / 8, key tile
  t % 8); the body resets its running-minimum scratch where the key tile is 0, folds the tile's minimum into it at
  every point, and copies it to the output block where the key tile is 7 (elsewhere the output window is idle and
  is not written back). Stated for both pallas_calls (regions 0 and 1), at any float instance.
-/
import proofs.«131507_j34351148433808_1_alg».proof.Proof.Gen.KernelIdeal.Launch
import proofs.«131507_j34351148433808_1_alg».proof.Proof.Gen.KernelIdeal.Skeleton
import proofs.«131507_j34351148433808_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the blocks, the branch conditions, the idle points, the memrefs -/

section Region0
variable (V : (c : Dev nD) → (b : Ref sig .tc) → Buf (Elt F) ((c : Thread nD τ).loc b))

/-- Window `w`'s block at point `t`, read off its array at the region's entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- The first branch of the body (the accumulator's reset) is taken where the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The second branch (the copy of the accumulator to the output block) is taken where the second grid coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-- One staging buffer of the output window, through which its contents are stated. -/
abbrev VO0_2 : View sig .tc .vmem S8x512 .f32 := (Memref.whole cc0_stg2_0 : Memref sig .tc .vmem S8x512 .f32).view
abbrev ms0_0 (t : Fin cfg0.N) : Memref sig .tc .vmem S8x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
/-- The running-minimum scratch, a whole scoped buffer of the kernel's own. -/
abbrev scM0_0 : Memref sig .tc .vmem S8x512 .f32 := Memref.whole cc0_scratch0
abbrev VS0_0 : View sig .tc .vmem S8x512 .f32 := scM0_0.view

/-- The core's scoped buffers other than this region's staging buffers and its scratch (the other region's), each at
    some contents: they ride through the region untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's class invariant splits into the scratch at some contents, the other scoped buffers, and the generator register. -/
theorem PhiA0_split (c : Dev nD) :
    (Pipeline.ΦA spec0 c : sProp 𝕄) ⊢ iprop(((∃ d, owns (c : Thread nD τ) scM0_0 fullShare d) ∗ Rest0 c) ∗ (∃ r, prngReg c r)) := by
  unfold Pipeline.ΦA Rest0; rw [scopedRest0_eq]; simp only [scM0_0, owns_whole]
  iintro ⟨⟨HS, R0, R1, R2, R3, R4, R5, R6⟩, Hg⟩
  isplitr [Hg]
  · isplitl [HS]; · iexact HS
    isplitl [R0]; · iexact R0
    isplitl [R1]; · iexact R1
    isplitl [R2]; · iexact R2
    isplitl [R3]; · iexact R3
    isplitl [R4]; · iexact R4
    isplitl [R5]; · iexact R5
    iexact R6
  · iexact Hg
theorem PhiA0_join (c : Dev nD) :
    (iprop(((∃ d, owns (c : Thread nD τ) scM0_0 fullShare d) ∗ Rest0 c) ∗ (∃ r, prngReg c r)) : sProp 𝕄) ⊢ Pipeline.ΦA spec0 c := by
  unfold Pipeline.ΦA Rest0; rw [scopedRest0_eq]; simp only [scM0_0, owns_whole]
  iintro ⟨⟨HS, R0, R1, R2, R3, R4, R5, R6⟩, Hg⟩
  isplitr [Hg]
  ·
    isplitl [HS]; · iexact HS
    isplitl [R0]; · iexact R0
    isplitl [R1]; · iexact R1
    isplitl [R2]; · iexact R2
    isplitl [R3]; · iexact R3
    isplitl [R4]; · iexact R4
    isplitl [R5]; · iexact R5
    iexact R6
  · iexact Hg

/-! # Region 1: the blocks, the branch conditions, the idle points, the memrefs -/

section Region1
variable (V : (c : Dev nD) → (b : Ref sig .tc) → Buf (Elt F) ((c : Thread nD τ).loc b))

/-- Window `w`'s block at point `t`, read off its array at the region's entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-- The first branch of the body (the accumulator's reset) is taken where the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (the copy of the accumulator to the output block) is taken where the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-- One staging buffer of the output window, through which its contents are stated. -/
abbrev VO1_2 : View sig .tc .vmem S8x512 .f32 := (Memref.whole cc1_stg2_0 : Memref sig .tc .vmem S8x512 .f32).view
abbrev ms1_0 (t : Fin cfg1.N) : Memref sig .tc .vmem S8x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
/-- The running-minimum scratch, a whole scoped buffer of the kernel's own. -/
abbrev scM1_0 : Memref sig .tc .vmem S8x512 .f32 := Memref.whole cc1_scratch0
abbrev VS1_0 : View sig .tc .vmem S8x512 .f32 := scM1_0.view

/-- The core's scoped buffers other than this region's staging buffers and its scratch (the other region's), each at
    some contents: they ride through the region untouched. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region's class invariant splits into the scratch at some contents, the other scoped buffers, and the generator register. -/
theorem PhiA1_split (c : Dev nD) :
    (Pipeline.ΦA spec1 c : sProp 𝕄) ⊢ iprop(((∃ d, owns (c : Thread nD τ) scM1_0 fullShare d) ∗ Rest1 c) ∗ (∃ r, prngReg c r)) := by
  unfold Pipeline.ΦA Rest1; rw [scopedRest1_eq]; simp only [scM1_0, owns_whole]
  iintro ⟨⟨R0, R1, R2, R3, R4, R5, R6, HS⟩, Hg⟩
  isplitr [Hg]
  · isplitl [HS]; · iexact HS
    isplitl [R0]; · iexact R0
    isplitl [R1]; · iexact R1
    isplitl [R2]; · iexact R2
    isplitl [R3]; · iexact R3
    isplitl [R4]; · iexact R4
    isplitl [R5]; · iexact R5
    iexact R6
  · iexact Hg
theorem PhiA1_join (c : Dev nD) :
    (iprop(((∃ d, owns (c : Thread nD τ) scM1_0 fullShare d) ∗ Rest1 c) ∗ (∃ r, prngReg c r)) : sProp 𝕄) ⊢ Pipeline.ΦA spec1 c := by
  unfold Pipeline.ΦA Rest1; rw [scopedRest1_eq]; simp only [scM1_0, owns_whole]
  iintro ⟨⟨HS, R0, R1, R2, R3, R4, R5, R6⟩, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    iexact HS
  · iexact Hg

end Cert.KernelIdeal.Fr

end
-- ==== Proof.FrKernelIdeal.Run0A.lean ====
/-
  The kernel body of pallas_call 0 run once, at a point where the key tile is 0 (the scratch is reset to +∞ first; the output window is idle): on whole
  staging memrefs holding the two input blocks, it runs to its end leaving the inputs as they were and the scratch (and,
  at the last key tile, the output block) overwritten by the pieces the symbolic run finds.
-/
import proofs.«131507_j34351148433808_1_alg».proof.Proof.FrKernelIdeal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x3 .f32) (x1 : Vec F S8x512x3 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨[], ?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrKernelIdeal.Run0B.lean ====
/-
  The kernel body of pallas_call 0 run once, at a point where the key tile is neither 0 nor 7 (the scratch is carried; the output window is idle): on whole
  staging memrefs holding the two input blocks, it runs to its end leaving the inputs as they were and the scratch (and,
  at the last key tile, the output block) overwritten by the pieces the symbolic run finds.
-/
import proofs.«131507_j34351148433808_1_alg».proof.Proof.FrKernelIdeal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨[], ?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrKernelIdeal.Run0C.lean ====
/-
  The kernel body of pallas_call 0 run once, at a point where the key tile is 7 (the scratch is carried, then copied into the output block): on whole
  staging memrefs holding the two input blocks, it runs to its end leaving the inputs as they were and the scratch (and,
  at the last key tile, the output block) overwritten by the pieces the symbolic run finds.
-/
import proofs.«131507_j34351148433808_1_alg».proof.Proof.FrKernelIdeal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__nn_min_kernel i arg2 harg2 arg3 harg3 arg4 harg4 arg5 harg5) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrKernelIdeal.Reg0.lean ====
/-
  Region 0 (pallas_call 0) point by point: what each of the three kinds of point leaves in the output's staging
  buffer and in the running-minimum scratch (the pieces the runs found, read back), those contents by recursion on the
  point (a point whose key tile is not 0 starts from the scratch the point before left), the region's invariant (the
  scratch at those contents, the other scoped buffers and the generator register riding along), the proof data, and
  the body obligation at every point.
-/
import proofs.«131507_j34351148433808_1_alg».proof.Proof.FrKernelIdeal.Run0A
import proofs.«131507_j34351148433808_1_alg».proof.Proof.FrKernelIdeal.Run0B
import proofs.«131507_j34351148433808_1_alg».proof.Proof.FrKernelIdeal.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Where the key tile is 0 (and not 7) nothing is stored into the output block: a placeholder nothing consults. -/
def out0_A_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i) (x0 : Vec F S8x512x3 .f32) (x1 : Vec F S8x512x3 .f32) : Vec F S8x512 .f32 :=
  VO0_2.read (Elt F) (VO0_2.writes (Elt F) VO0_2.junk (kernelRun0_A c i arg2 harg2 arg3 harg3 arg4 harg4 arg5 harg5 hc0 hc1 x0 x1).1)
theorem scover0_A_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i) (x0 : Vec F S8x512x3 .f32) (x1 : Vec F S8x512x3 .f32) (y : S8x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S8x512.size (by sl_kernel_rfl) y
/-- What such a point leaves in the scratch. -/
def sout0_A_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i) (x0 : Vec F S8x512x3 .f32) (x1 : Vec F S8x512x3 .f32) : Vec F S8x512 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i) (x0 : Vec F S8x512x3 .f32) (x1 : Vec F S8x512x3 .f32) (xs0 : Vec F S8x512 .f32) : Vec F S8x512 .f32 :=
  VO0_2.read (Elt F) (VO0_2.writes (Elt F) VO0_2.junk (kernelRun0_B c i arg2 harg2 arg3 harg3 arg4 harg4 arg5 harg5 hc0 hc1 x0 x1 xs0).1)
theorem scover0_B_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i) (x0 : Vec F S8x512x3 .f32) (x1 : Vec F S8x512x3 .f32) (xs0 : Vec F S8x512 .f32) (y : S8x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S8x512.size (by sl_kernel_rfl) y
def sout0_B_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i) (x0 : Vec F S8x512x3 .f32) (x1 : Vec F S8x512x3 .f32) (xs0 : Vec F S8x512 .f32) : Vec F S8x512 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i) (x0 : Vec F S8x512x3 .f32) (x1 : Vec F S8x512x3 .f32) (xs0 : Vec F S8x512 .f32) (y : S8x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S8x512.size (by sl_kernel_rfl) y
/-- Where the key tile is 7 the output block is stored whole. -/
def out0_C_2 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i) (x0 : Vec F S8x512x3 .f32) (x1 : Vec F S8x512x3 .f32) (xs0 : Vec F S8x512 .f32) : Vec F S8x512 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i) (x0 : Vec F S8x512x3 .f32) (x1 : Vec F S8x512x3 .f32) (xs0 : Vec F S8x512 .f32) (y : S8x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S8x512.size (by sl_kernel_rfl) y
def sout0_C_0 (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i) (x0 : Vec F S8x512x3 .f32) (x1 : Vec F S8x512x3 .f32) (xs0 : Vec F S8x512 .f32) : Vec F S8x512 .f32 :=
  VS0_0.read (Elt F) (VS0_0.writes (Elt F) VS0_0.junk (kernelRun0_C c i arg2 harg2 arg3 harg3 arg4 harg4 arg5 harg5 hc0 hc1 x0 x1 xs0).2.1)

/-- What the output's staging buffer and the scratch hold after the body at position `n`, by recursion on `n`. -/
def outsAt0 (c : Dev nD) : (n : ℕ) → n < cfg0.N → Vec F S8x512 .f32 × Vec F S8x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the scratch at what the
    point before left in it, the other scoped buffers at some contents, the generator register at some state. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare ((outsAt0 V c n hn).2) ∗ Rest0 c) ∗ (∃ r, prngReg c r)) := rfl
theorem PhiS0_pos (c : Dev nD) (n : ℕ) (h : n ≤ cfg0.N) (hz : n ≠ 0) :
    PhiS0 V c n h = iprop((owns (c : Thread nD τ) scM0_0 fullShare ((outsAt0 V c (n - 1) (by omega)).2) ∗ Rest0 c) ∗ (∃ r, prngReg c r)) := by
  cases n with
  | zero => exact absurd rfl hz
  | succ n => rfl

/-- The proof data of pipeline 0 on core `c`, at the region's entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point's key tile says which of the three runs
    applies; the invariant hands the run the scratch (at anything at the very first point, else at what the point before
    left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · by_cases h1 : t.val % 8 = 7
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_split (F := F) c) $$ HΦ
        icases HΦ' with ⟨⟨HS0, HR⟩, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitr [Hg]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitr [Hg]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: the scratch's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht]
  refine BIBase.Entails.trans ?_ (PhiA0_join (F := F) c)
  iintro ⟨⟨HS0, HR⟩, Hg⟩
  isplitr [Hg]
  · isplitl [HS0]; · iexists _; iexact HS0
    iexact HR
  · iexact Hg

end

end Cert.KernelIdeal.Fr

end
-- ==== Proof.FrKernelIdeal.Run1A.lean ====
/-
  The kernel body of pallas_call 1 run once, at a point where the key tile is 0 (the scratch is reset to +∞ first; the output window is idle): on whole
  staging memrefs holding the two input blocks, it runs to its end leaving the inputs as they were and the scratch (and,
  at the last key tile, the output block) overwritten by the pieces the symbolic run finds.
-/
import proofs.«131507_j34351148433808_1_alg».proof.Proof.FrKernelIdeal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 : Vec F S8x512x3 .f32) (x1 : Vec F S8x512x3 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨[], ?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrKernelIdeal.Run1B.lean ====
/-
  The kernel body of pallas_call 1 run once, at a point where the key tile is neither 0 nor 7 (the scratch is carried; the output window is idle): on whole
  staging memrefs holding the two input blocks, it runs to its end leaving the inputs as they were and the scratch (and,
  at the last key tile, the output block) overwritten by the pieces the symbolic run finds.
-/
import proofs.«131507_j34351148433808_1_alg».proof.Proof.FrKernelIdeal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (xi2 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨[], ?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrKernelIdeal.Run1C.lean ====
/-
  The kernel body of pallas_call 1 run once, at a point where the key tile is 7 (the scratch is carried, then copied into the output block): on whole
  staging memrefs holding the two input blocks, it runs to its end leaving the inputs as they were and the scratch (and,
  at the last key tile, the output block) overwritten by the pieces the symbolic run finds.
-/
import proofs.«131507_j34351148433808_1_alg».proof.Proof.FrKernelIdeal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 : Vec F S8x512x3 .f32) (x1 : Vec F S8x512x3 .f32) (xs0 : Vec F S8x512 .f32) :
    Σ' (L2 : List (View.Piece (Elt F) S8x512 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__nn_min_kernel i arg2 harg2 arg3 harg3 arg4 harg4 arg5 harg5) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrKernelIdeal.Reg1.lean ====
/-
  Region 1 (pallas_call 1) point by point: what each of the three kinds of point leaves in the output's staging
  buffer and in the running-minimum scratch (the pieces the runs found, read back), those contents by recursion on the
  point (a point whose key tile is not 0 starts from the scratch the point before left), the region's invariant (the
  scratch at those contents, the other scoped buffers and the generator register riding along), the proof data, and
  the body obligation at every point.
-/
import proofs.«131507_j34351148433808_1_alg».proof.Proof.FrKernelIdeal.Run1A
import proofs.«131507_j34351148433808_1_alg».proof.Proof.FrKernelIdeal.Run1B
import proofs.«131507_j34351148433808_1_alg».proof.Proof.FrKernelIdeal.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Where the key tile is 0 (and not 7) nothing is stored into the output block: a placeholder nothing consults. -/
def out1_A_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i) (x0 : Vec F S8x512x3 .f32) (x1 : Vec F S8x512x3 .f32) : Vec F S8x512 .f32 :=
  VO1_2.read (Elt F) (VO1_2.writes (Elt F) VO1_2.junk (kernelRun1_A c i arg2 harg2 arg3 harg3 arg4 harg4 arg5 harg5 hc0 hc1 x0 x1).1)
theorem scover1_A_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i) (x0 : Vec F S8x512x3 .f32) (x1 : Vec F S8x512x3 .f32) (y : S8x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S8x512.size (by sl_kernel_rfl) y
/-- What such a point leaves in the scratch. -/
def sout1_A_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i) (x0 : Vec F S8x512x3 .f32) (x1 : Vec F S8x512x3 .f32) : Vec F S8x512 .f32 :=
  VS1_0.read (Elt F) (VS1_0.writes (Elt F) VS1_0.junk (kernelRun1_A c i arg2 harg2 arg3 harg3 arg4 harg4 arg5 harg5 hc0 hc1 x0 x1).2.1)

def out1_B_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i) (x0 : Vec F S8x512x3 .f32) (x1 : Vec F S8x512x3 .f32) (xs0 : Vec F S8x512 .f32) : Vec F S8x512 .f32 :=
  VO1_2.read (Elt F) (VO1_2.writes (Elt F) VO1_2.junk (kernelRun1_B c i arg2 harg2 arg3 harg3 arg4 harg4 arg5 harg5 hc0 hc1 x0 x1 xs0).1)
theorem scover1_B_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i) (x0 : Vec F S8x512x3 .f32) (x1 : Vec F S8x512x3 .f32) (xs0 : Vec F S8x512 .f32) (y : S8x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S8x512.size (by sl_kernel_rfl) y
def sout1_B_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i) (x0 : Vec F S8x512x3 .f32) (x1 : Vec F S8x512x3 .f32) (xs0 : Vec F S8x512 .f32) : Vec F S8x512 .f32 :=
  VS1_0.read (Elt F) (VS1_0.writes (Elt F) VS1_0.junk (kernelRun1_B c i arg2 harg2 arg3 harg3 arg4 harg4 arg5 harg5 hc0 hc1 x0 x1 xs0).2.1)

theorem cover1_C_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i) (x0 : Vec F S8x512x3 .f32) (x1 : Vec F S8x512x3 .f32) (xs0 : Vec F S8x512 .f32) (y : S8x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x512.size (by sl_kernel_rfl) y
/-- Where the key tile is 7 the output block is stored whole. -/
def out1_C_2 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i) (x0 : Vec F S8x512x3 .f32) (x1 : Vec F S8x512x3 .f32) (xs0 : Vec F S8x512 .f32) : Vec F S8x512 .f32 :=
  VO1_2.read (Elt F) (VO1_2.writes (Elt F) VO1_2.junk (kernelRun1_C c i arg2 harg2 arg3 harg3 arg4 harg4 arg5 harg5 hc0 hc1 x0 x1 xs0).1)
theorem scover1_C_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i) (x0 : Vec F S8x512x3 .f32) (x1 : Vec F S8x512x3 .f32) (xs0 : Vec F S8x512 .f32) (y : S8x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S8x512.size (by sl_kernel_rfl) y
def sout1_C_0 (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i) (x0 : Vec F S8x512x3 .f32) (x1 : Vec F S8x512x3 .f32) (xs0 : Vec F S8x512 .f32) : Vec F S8x512 .f32 :=
  VS1_0.read (Elt F) (VS1_0.writes (Elt F) VS1_0.junk (kernelRun1_C c i arg2 harg2 arg3 harg3 arg4 harg4 arg5 harg5 hc0 hc1 x0 x1 xs0).2.1)

/-- What the output's staging buffer and the scratch hold after the body at position `n`, by recursion on `n`. -/
def outsAt1 (c : Dev nD) : (n : ℕ) → n < cfg1.N → Vec F S8x512 .f32 × Vec F S8x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the scratch at what the
    point before left in it, the other scoped buffers at some contents, the generator register at some state. -/
def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1_0 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop((owns (c : Thread nD τ) scM1_0 fullShare ((outsAt1 V c (n - 1) (by omega)).2) ∗ Rest1 c) ∗ (∃ r, prngReg c r)) := by
  cases n with
  | zero => exact absurd rfl hz
  | succ n => rfl

/-- The proof data of pipeline 1 on core `c`, at the region's entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's key tile says which of the three runs
    applies; the invariant hands the run the scratch (at anything at the very first point, else at what the point before
    left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · by_cases h1 : t.val % 8 = 7
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_split (F := F) c) $$ HΦ
        icases HΦ' with ⟨⟨HS0, HR⟩, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitr [Hg]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitr [Hg]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitr [Hg]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitr [Hg]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the scratch's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht]
  refine BIBase.Entails.trans ?_ (PhiA1_join (F := F) c)
  iintro ⟨⟨HS0, HR⟩, Hg⟩
  isplitr [Hg]
  · isplitl [HS0]; · iexists _; iexact HS0
    iexact HR
  · iexact Hg

end

end Cert.KernelIdeal.Fr

end
-- ==== Proof.FrKernelIdeal.Main.lean ====
/-
  The whole run of @main: region 0, region 1, then the nine host operations that form the two means and add them. The
  buffers' contents at each boundary are named — at launch, after region 0 (its arrays at what the pipeline's write-backs
  leave, everything else untouched), after region 1, after the host operations — and the run ends with every unscoped
  buffer at the last of these; in particular the result buffer, and the two argument arrays as launched (no region and
  no host operation writes them: each is an input window of both regions).
-/
import proofs.«131507_j34351148433808_1_alg».proof.Proof.FrKernelIdeal.Reg0
import proofs.«131507_j34351148433808_1_alg».proof.Proof.FrKernelIdeal.Reg1
import proofs.«131507_j34351148433808_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (region 0's entry). -/
abbrev W0 : Dev nD → Valuation τ sig (Elt F) := fun c b => m (c, b)
abbrev V1 : (c : Dev nD) → (b : Ref sig .tc) → Buf (Elt F) ((c : Thread nD τ).loc b) := fun c b => W0 m c b
/-- At region 0's exit (region 1's entry). -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)
/-- After the host operations: the end. -/
abbrev W5 : Dev nD → Valuation τ sig (Elt F) := fun c => StableHlo.after hostOps2 (W4 m c)

/-- The first argument array ends as launched. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W2 m c (Proc.devRef .tc main_arg0) := (W4_arr m c 1).trans (((dat1 (V2 m) c).arrAt_in 1 rfl _).trans (A_eq1 (V2 m) c 1))
    _ = W0 m c (Proc.devRef .tc main_arg0) := (W2_arr m c 0).trans (((dat0 (V1 m) c).arrAt_in 0 rfl _).trans (A_eq0 (V1 m) c 0))
    _ = m ((c : Thread nD τ).loc main_arg0) := rfl
/-- The second argument array ends as launched. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W2 m c (Proc.devRef .tc main_arg1) := (W4_arr m c 0).trans (((dat1 (V2 m) c).arrAt_in 0 rfl _).trans (A_eq1 (V2 m) c 0))
    _ = W0 m c (Proc.devRef .tc main_arg1) := (W2_arr m c 1).trans (((dat0 (V1 m) c).arrAt_in 1 rfl _).trans (A_eq0 (V1 m) c 1))
    _ = m ((c : Thread nD τ).loc main_arg1) := rfl

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered with every unscoped buffer at `W0`, left with them at `W2`; its
    arrays are split out of the unscoped buffers and put back at their exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W4`; its
    arrays are split out of the unscoped buffers and put back at their exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m), .region (reg1 m), .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- At the compiled mesh, from any memory with zero counters: every weakly fair execution of @main terminates, nothing
    faulting, and every final state has every unscoped buffer of each core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (StableHlo.after hostOps2 (W4 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame claim at any float instance: the run ends with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

end Cert.KernelIdeal.Fr

end
-- ==== Proof.Spec.lean ====
/-
  The mathematics of the bidirectional nearest-neighbour (Chamfer) loss over the extended reals, free of any program.
  For two clouds `x, y` of 4096 points of ℝ̄³ in each of 8 batches: the squared distance in its expanded form
  |p|² + |q|² − 2 p·q, the nearest-neighbour squared distance from a point of `x` to the cloud `y` (an infimum over the
  4096 points of `y`), and the [8, 4096] array of those distances. Addition and multiplication of extended reals
  commute, so the distance is symmetric in its two points: `dist_swap`.
-/
import Mathlib
import Idealize.ShloMosaic.PureOps.Ideal
import Idealize.ShloMosaic.Lib.ValueIdx

noncomputable section

namespace Cert.Chamfer

open Idealize.ShloMosaic Idealize.ShloMosaic.ValueIdx

/-- The shape of a cloud: 8 batches of 4096 points of 3 coordinates. -/
abbrev Pts : Shape := ⟨3, ![8, 4096, 3]⟩
/-- The shape of a result array: one number per batch and point. -/
abbrev Out : Shape := ⟨2, ![8, 4096]⟩

/-- The factor 2 of the cross term, as the programs spell it (the f32 pattern of 2.0). -/
abbrev two : EReal := Ideal.ofBits .f32 0x40000000#32

/-- The squared norm of point `n` of batch `b`. -/
def sqn (x : Pts.Idx → EReal) (b : Fin 8) (n : Fin 4096) : EReal := ∑ d : Fin 3, x (ix3 b n d) * x (ix3 b n d)

/-- The inner product of point `n` of `x` with point `m` of `y`, in batch `b`. -/
def dot (x y : Pts.Idx → EReal) (b : Fin 8) (n m : Fin 4096) : EReal := ∑ d : Fin 3, x (ix3 b n d) * y (ix3 b m d)

/-- The squared distance in expanded form: |p|² + |q|² − 2 p·q. -/
def dist (x y : Pts.Idx → EReal) (b : Fin 8) (n m : Fin 4096) : EReal := (sqn x b n + sqn y b m) - two * dot x y b n m

/-- The nearest-neighbour squared distance from point `n` of `x` to the cloud `y`. -/
def nn (x y : Pts.Idx → EReal) (b : Fin 8) (n : Fin 4096) : EReal := ⨅ m : Fin 4096, dist x y b n m

/-- The array of nearest-neighbour distances from the points of `x` to the cloud `y`. -/
def nnArr (x y : Pts.Idx → EReal) : Out.Idx → EReal := fun j => nn x y (j 0) (j 1)

theorem dot_swap (x y : Pts.Idx → EReal) (b : Fin 8) (n m : Fin 4096) : dot y x b m n = dot x y b n m := by
  unfold dot; exact Finset.sum_congr rfl fun d _ => mul_comm _ _

/-- The expanded squared distance does not depend on which point is called the query. -/
theorem dist_swap (x y : Pts.Idx → EReal) (b : Fin 8) (n m : Fin 4096) : dist y x b m n = dist x y b n m := by
  unfold dist; rw [dot_swap, add_comm]

end Cert.Chamfer

end
-- ==== Proof.SpecLoss.lean ====
/-
  The closing arithmetic of the loss, spelled as both programs spell it on the host: each [8, 4096] array of
  nearest-neighbour distances is summed whole from 0, divided by 32768 = 8 · 4096 (its mean), and the two means are added.
  The two shape facts are the programs' own; any two proofs of them give the same function.
-/
import proofs.«131507_j34351148433808_1_alg».proof.Proof.Spec
import Idealize.ShloMosaic.PureOps.Ideal

noncomputable section

namespace Cert.Chamfer

open Idealize.ShloMosaic

/-- mean(a) + mean(b) over the extended reals, in the host's spelling. -/
def loss (hr : Out.ReducesTo [0, 1] (⟨0, ![]⟩ : Shape)) (hs : 0 < (⟨0, ![]⟩ : Shape).numel) (a b : FVec Ideal Out .f32) :
    FVec Ideal (⟨0, ![]⟩ : Shape) .f32 :=
  addf (Host.divf (F := Ideal) (Host.reduceAdd (F := Ideal) a (constant (F := Ideal) (⟨0, ![]⟩ : Shape) .f32 0x00000000#32) hr hs) (constant (F := Ideal) (⟨0, ![]⟩ : Shape) .f32 0x47000000#32))
    (Host.divf (F := Ideal) (Host.reduceAdd (F := Ideal) b (constant (F := Ideal) (⟨0, ![]⟩ : Shape) .f32 0x00000000#32) hr hs) (constant (F := Ideal) (⟨0, ![]⟩ : Shape) .f32 0x47000000#32))

end Cert.Chamfer

end
-- ==== Proof.ValKernelIdeal.Tail.lean ====
/-
  The end of @main at the exact instance: the result buffer holds mean + mean of the two arrays the regions left — the
  nine host operations after the regions read off the last valuation —, those two arrays are the pipelines' final
  contents of their output windows, and each region found the argument arrays as launched.
-/
import proofs.«131507_j34351148433808_1_alg».proof.Proof.FrKernelIdeal.Main
import proofs.«131507_j34351148433808_1_alg».proof.Proof.SpecLoss
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (m : (ℓ : Loc nD τ sig) → Buf (Elt Ideal) ℓ)

/-- The host operations after the regions compute mean + mean of what the two regions left. -/
theorem tail_eq (W : Valuation τ sig (Elt Ideal)) :
    StableHlo.after (hostOps2 (F := Ideal)) W (Proc.devRef .tc main_v6)
      = Cert.Chamfer.loss reducesTo_S8x4096_S_d0_1 h_S_ (W (Proc.devRef .tc main_v0)) (W (Proc.devRef .tc main_v1)) := by
  unfold Cert.Chamfer.loss
  after_results

theorem W5_result (c : Dev nD) :
    W5 m c (Proc.devRef .tc main_v6)
      = Cert.Chamfer.loss reducesTo_S8x4096_S_d0_1 h_S_ (W4 m c (Proc.devRef .tc main_v0)) (W4 m c (Proc.devRef .tc main_v1)) :=
  tail_eq (W4 m c)

/-- Region 1 leaves region 0's output array alone and writes its own. -/
theorem W4_main_v0 (c : Dev nD) : W4 m c (Proc.devRef .tc main_v0) = (dat0 (V1 m) c).arrAt 2 cfg0.N :=
  (W4_of_ne m c main_v0 (by decide)).trans (W2_arr m c 2)
theorem W4_main_v1 (c : Dev nD) : W4 m c (Proc.devRef .tc main_v1) = (dat1 (V2 m) c).arrAt 2 cfg1.N :=
  W4_arr m c 2

/-- Region 1 finds the argument arrays as launched: region 0 only read them. -/
theorem V2_main_arg0 (c : Dev nD) : V2 m c main_arg0 = m ((c : Thread nD τ).loc main_arg0) :=
  (W2_arr m c 0).trans (((dat0 (V1 m) c).arrAt_in 0 rfl _).trans (A_eq0 (V1 m) c 0))
theorem V2_main_arg1 (c : Dev nD) : V2 m c main_arg1 = m ((c : Thread nD τ).loc main_arg1) :=
  (W2_arr m c 1).trans (((dat0 (V1 m) c).arrAt_in 1 rfl _).trans (A_eq0 (V1 m) c 1))

end Cert.KernelIdeal.Val

end
-- ==== Proof.InfBlocks.lean ====
/-
  Infima over an initial segment of 4096 indices, built up one block of 512 at a time, and the fold of `min` from the
  top element over a finite type as an infimum. The extended reals are a complete linear order, which is all that is used.
-/
import Mathlib

namespace Cert.Chamfer

/-- The infimum over the indices below 512 is the infimum over the first block of 512. -/
theorem iInf_first_block (f : Fin 4096 → EReal) :
    (⨅ (m : Fin 4096) (_ : m.val < 512), f m) = ⨅ m' : Fin 512, f ⟨m'.val, by omega⟩ := by
  apply le_antisymm
  · refine le_iInf fun m' => ?_
    exact iInf₂_le (⟨m'.val, by omega⟩ : Fin 4096) m'.isLt
  · refine le_iInf₂ fun m hm => ?_
    exact iInf_le (fun m' : Fin 512 => f ⟨m'.val, by omega⟩) ⟨m.val, hm⟩

/-- Extending the initial segment by one block of 512 takes the minimum with the infimum over that block. -/
theorem iInf_next_block (f : Fin 4096 → EReal) (k : ℕ) (hk : k + 1 < 8) :
    (⨅ (m : Fin 4096) (_ : m.val < 512 * (k + 2)), f m)
      = min (⨅ (m : Fin 4096) (_ : m.val < 512 * (k + 1)), f m)
          (⨅ m' : Fin 512, f ⟨512 * (k + 1) + m'.val, by omega⟩) := by
  apply le_antisymm
  · refine le_min ?_ ?_
    · refine le_iInf₂ fun m hm => ?_
      exact iInf₂_le m (by omega)
    · refine le_iInf fun m' => ?_
      exact iInf₂_le (⟨512 * (k + 1) + m'.val, by omega⟩ : Fin 4096) (by show 512 * (k + 1) + m'.val < 512 * (k + 2); omega)
  · refine le_iInf₂ fun m hm => ?_
    by_cases h : m.val < 512 * (k + 1)
    · exact (min_le_left _ _).trans (iInf₂_le m h)
    · refine (min_le_right _ _).trans ?_
      have hlt : m.val - 512 * (k + 1) < 512 := by omega
      refine (iInf_le (fun m' : Fin 512 => f ⟨512 * (k + 1) + m'.val, by omega⟩) ⟨m.val - 512 * (k + 1), hlt⟩).trans ?_
      apply le_of_eq
      congr 1
      apply Fin.ext
      show 512 * (k + 1) + (m.val - 512 * (k + 1)) = m.val
      omega

/-- Eight blocks of 512 exhaust the 4096 indices. -/
theorem iInf_all_blocks (f : Fin 4096 → EReal) : (⨅ (m : Fin 4096) (_ : m.val < 512 * 8), f m) = ⨅ m, f m := by
  apply le_antisymm
  · refine le_iInf fun m => ?_
    exact iInf₂_le m (by omega)
  · refine le_iInf₂ fun m _ => ?_
    exact iInf_le f m

/-- Folding `min` from the top element over a finite set is the infimum over that set. -/
theorem fold_min_top_eq_iInf_mem {ι : Type*} [DecidableEq ι] (g : ι → EReal) (s : Finset ι) :
    s.fold min ⊤ g = ⨅ k ∈ s, g k := by
  induction s using Finset.induction_on with
  | empty => simp
  | insert a s ha ih =>
    rw [Finset.fold_insert ha, ih, Finset.iInf_insert]

/-- Folding `min` from the top element over a whole finite type is the infimum over the type. -/
theorem fold_min_top_eq_iInf {ι : Type*} [Fintype ι] (g : ι → EReal) :
    (Finset.univ : Finset ι).fold min ⊤ g = ⨅ k, g k := by
  classical
  rw [fold_min_top_eq_iInf_mem]
  simp

end Cert.Chamfer
-- ==== Proof.LibLaneMin.lean ====
/-
  A minimum over one axis, started from +∞, read over the extended reals. Folding `min` from the top element over a
  finite type is the infimum over the type; the bit pattern of +∞ is the top element; so a float minimum-reduction over
  one axis from the +∞ pattern is, at each reduced index, the infimum over that axis's coordinates of the source — and,
  for the last axis of a rank-3 array, the infimum of a row written by coordinates.
-/
import Mathlib
import Idealize.ShloMosaic.Lib.ValueIdx
import Idealize.ShloMosaic.PureOps.Ideal.Laws

noncomputable section

namespace Cert.LibLaneMin

open Idealize.ShloMosaic Idealize.ShloMosaic.ValueIdx

/-- Folding `min` from the top element over a finite set is the infimum over that set. -/
theorem fold_min_top_eq_iInf_mem {ι : Type*} [DecidableEq ι] (g : ι → EReal) (s : Finset ι) :
    s.fold min ⊤ g = ⨅ k ∈ s, g k := by
  induction s using Finset.induction_on with
  | empty => simp
  | insert a s ha ih =>
    rw [Finset.fold_insert ha, ih, Finset.iInf_insert]

/-- Folding `min` from the top element over a whole finite type is the infimum over the type. -/
theorem fold_min_top_eq_iInf {ι : Type*} [Fintype ι] (g : ι → EReal) :
    (Finset.univ : Finset ι).fold min ⊤ g = ⨅ k, g k := by
  classical
  rw [fold_min_top_eq_iInf_mem]
  simp

/-- The f32 bit pattern of +∞ is the top element of the extended reals. -/
theorem ofBits_inf_f32 : Ideal.ofBits .f32 0x7F800000#32 = (⊤ : EReal) := by
  simp [Ideal.ofBits, Ideal.ieee]

/-- A float minimum-reduction over one axis is the fold of `min` from the accumulator's value over that axis's
    coordinates (the reduced index with the coordinate inserted). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- An f32 minimum-reduction over one axis from the +∞ pattern is, at each reduced index, the infimum of the source over
    that axis's coordinates. -/
theorem multiReduction_minimumf_inf_single {s t : Shape} {a : Fin s.rank} (src : FVec Ideal s .f32)
    (h : s.Reduces [a] t) (hφ : FKind.Formats .f32)
    (hacc : (0x7F800000#32 : BitVec (FTy.bits .f32)) = FKind.minimumf.neutral .f32 hφ) (j : t.Idx) :
    multiReduction (F := Ideal) .minimumf [a] t src 0x7F800000#32 h hφ hacc j = ⨅ k : Fin (s.size a), src (h.lift j k) := by
  refine (multiReduction_minimumf_single src 0x7F800000#32 h hφ hacc j).trans ?_
  have htop : (FloatOps.ofBits (F := Ideal) .f32 0x7F800000#32 : EReal) = ⊤ := ofBits_inf_f32
  rw [htop]
  exact fold_min_top_eq_iInf (src ∘ h.lift j)

/-- The f32 minimum from +∞ over the last axis of an `[a, b, c]` array, at `(i, j)`, is the infimum of row `(i, j)`. -/
theorem multiReduction_minimumf_inf_abc_ab_apply {a b c : ℕ} (src : FVec Ideal ⟨3, ![a, b, c]⟩ .f32)
    (h : (⟨3, ![a, b, c]⟩ : Shape).Reduces [2] ⟨2, ![a, b]⟩) (hφ : FKind.Formats .f32)
    (hacc : (0x7F800000#32 : BitVec (FTy.bits .f32)) = FKind.minimumf.neutral .f32 hφ) (i : Fin a) (j : Fin b) :
    multiReduction (F := Ideal) .minimumf [2] ⟨2, ![a, b]⟩ src 0x7F800000#32 h hφ hacc (ix2 i j) = ⨅ k : Fin c, src (ix3 i j k) := by
  refine (multiReduction_minimumf_inf_single src h hφ hacc (ix2 i j)).trans ?_
  refine iInf_congr fun k => congrArg src (funext fun ax => Fin.ext ?_)
  match ax with
  | ⟨0, _⟩ => rfl
  | ⟨1, _⟩ => rfl
  | ⟨2, _⟩ => rfl

end Cert.LibLaneMin

end
-- ==== Proof.LibBatchLayout.lean ====
/-
  Rank-3 layout operations and the batched contraction read at an index, by coordinates. For extents `a`, `b`, `c`, `k`:
  an `[a, b]` array viewed as `[a, b, 1]` or as `[a, 1, b]` reads the same entries; an `[a, b, 1]` or `[a, 1, c]` array
  repeated to `[a, b, c]` reads its one entry along the unit axis; and the contraction of an `[a, b, k]` array with an
  `[a, c, k]` array over their last axes, batch axis first, added into zeros, is at `(p, q, r)` the inner product over
  `k` of row `(p, q)` of the first with row `(p, r)` of the second.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibBatchLayout

open Idealize.ShloMosaic Idealize.ShloMosaic.ValueIdx

/-! ## A unit axis added by a shape cast, and repeated by a broadcast -/

section Layout
variable {α : Type}

/-- An `[a, b]` array cast to `[a, b, 1]` reads, at `(i, j, u)`, the operand at `(i, j)`: the row-major positions agree. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, b, 1]` array broadcast to `[a, b, c]` reads, at `(i, j, k)`, the operand's one entry of row `(i, j)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row of batch `i` at `k`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The batched contraction over the last axes -/

section Contraction
variable {a b c k : ℕ}

/-- With one contracting axis the contraction index has rank one. -/
theorem contr_rank_eq_one (D : DotDims ⟨3, ![a, b, k]⟩ ⟨3, ![a, c, k]⟩ ⟨3, ![a, b, c]⟩) (hlc : D.lhsContracting = [2]) :
    D.contr.rank = 1 := by
  obtain ⟨lc, rc, ln, rn, lb, rb, wf⟩ := D
  dsimp only at hlc
  subst hlc
  rfl

/-- Contracting the last axis of the left operand, the contraction index ranges over that axis's extent. -/
theorem contr_size_eq (D : DotDims ⟨3, ![a, b, k]⟩ ⟨3, ![a, c, k]⟩ ⟨3, ![a, b, c]⟩) (hlc : D.lhsContracting = [2]) :
    D.contr.size ⟨0, by rw [contr_rank_eq_one D hlc]; exact Nat.one_pos⟩ = k := by
  obtain ⟨lc, rc, ln, rn, lb, rb, wf⟩ := D
  dsimp only at hlc
  subst hlc
  rfl

/-- The left operand's batch coordinate is the result's first coordinate. -/
theorem lhsIdx_val_0 (D : DotDims ⟨3, ![a, b, k]⟩ ⟨3, ![a, c, k]⟩ ⟨3, ![a, b, c]⟩) (hlb : D.lhsBatch = [0])
    (i : (⟨3, ![a, b, c]⟩ : Shape).Idx) (q : D.contr.Idx) : (D.lhsIdx i q 0).val = (i 0).val := by
  obtain ⟨lc, rc, ln, rn, lb, rb, wf⟩ := D
  dsimp only at hlb
  subst hlb
  unfold DotDims.lhsIdx
  rw [dif_pos (List.mem_singleton.2 rfl)]
  rfl

/-- The left operand's row coordinate is the result's second coordinate. -/
theorem lhsIdx_val_1 (D : DotDims ⟨3, ![a, b, k]⟩ ⟨3, ![a, c, k]⟩ ⟨3, ![a, b, c]⟩) (hlb : D.lhsBatch = [0])
    (hln : D.lhsNonContracting = [1]) (i : (⟨3, ![a, b, c]⟩ : Shape).Idx) (q : D.contr.Idx) :
    (D.lhsIdx i q 1).val = (i 1).val := by
  obtain ⟨lc, rc, ln, rn, lb, rb, wf⟩ := D
  dsimp only at hlb hln
  subst hlb hln
  unfold DotDims.lhsIdx
  rw [dif_neg (fun h => absurd (congrArg Fin.val (List.mem_singleton.1 h)) Nat.one_ne_zero), dif_pos (List.mem_singleton.2 rfl)]
  rfl

/-- The right operand's batch coordinate is the result's first coordinate. -/
theorem rhsIdx_val_0 (D : DotDims ⟨3, ![a, b, k]⟩ ⟨3, ![a, c, k]⟩ ⟨3, ![a, b, c]⟩) (hrb : D.rhsBatch = [0])
    (i : (⟨3, ![a, b, c]⟩ : Shape).Idx) (q : D.contr.Idx) : (D.rhsIdx i q 0).val = (i 0).val := by
  obtain ⟨lc, rc, ln, rn, lb, rb, wf⟩ := D
  dsimp only at hrb
  subst hrb
  unfold DotDims.rhsIdx
  rw [dif_pos (List.mem_singleton.2 rfl)]
  rfl

/-- The right operand's row coordinate is the result's third coordinate. -/
theorem rhsIdx_val_1 (D : DotDims ⟨3, ![a, b, k]⟩ ⟨3, ![a, c, k]⟩ ⟨3, ![a, b, c]⟩) (hlb : D.lhsBatch = [0])
    (hln : D.lhsNonContracting = [1]) (hrb : D.rhsBatch = [0]) (hrn : D.rhsNonContracting = [1])
    (i : (⟨3, ![a, b, c]⟩ : Shape).Idx) (q : D.contr.Idx) : (D.rhsIdx i q 1).val = (i 2).val := by
  obtain ⟨lc, rc, ln, rn, lb, rb, wf⟩ := D
  dsimp only at hlb hln hrb hrn
  subst hlb hln hrb hrn
  unfold DotDims.rhsIdx
  rw [dif_neg (fun h => absurd (congrArg Fin.val (List.mem_singleton.1 h)) Nat.one_ne_zero), dif_pos (List.mem_singleton.2 rfl)]
  rfl

/-- The contraction of `[a, b, k]` with `[a, c, k]` over their last axes (batch axis first), added into zeros, at `(p, q, r)`:
    the inner product over `k` of row `(p, q)` of the left operand and row `(p, r)` of the right. -/
theorem matmul_abk_ack_zero_apply {φ₁ φ₂ : FTy} (D : DotDims ⟨3, ![a, b, k]⟩ ⟨3, ![a, c, k]⟩ ⟨3, ![a, b, c]⟩)
    (hlc : D.lhsContracting = [2]) (hrc : D.rhsContracting = [2]) (hln : D.lhsNonContracting = [1])
    (hrn : D.rhsNonContracting = [1]) (hlb : D.lhsBatch = [0]) (hrb : D.rhsBatch = [0]) (prec : Option ContractPrecision)
    (l : FVec Ideal ⟨3, ![a, b, k]⟩ φ₁) (rr : FVec Ideal ⟨3, ![a, c, k]⟩ φ₂) (p : Fin a) (q : Fin b) (r : Fin c) :
    matmul (F := Ideal) D prec l rr (constant (F := Ideal) ⟨3, ![a, b, c]⟩ .f32 0x00000000#32) (ix3 p q r)
      = ∑ d : Fin k, l (ix3 p q d) * rr (ix3 p r d) := by
  refine (Ideal.matmul_constant_zero_apply D prec l rr (ix3 p q r)).trans ?_
  rw [← Equiv.sum_comp (contrEquiv1 D k (contr_rank_eq_one D hlc) (contr_size_eq D hlc)).symm]
  refine Finset.sum_congr rfl fun d _ => ?_
  have hd := contrEquiv1_symm_val D k (contr_rank_eq_one D hlc) (contr_size_eq D hlc) d
  have el : D.lhsIdx (ix3 p q r) ((contrEquiv1 D k (contr_rank_eq_one D hlc) (contr_size_eq D hlc)).symm d) = ix3 p q d :=
    funext fun ax => Fin.ext (by
      match ax with
      | ⟨0, _⟩ => exact lhsIdx_val_0 D hlb _ _
      | ⟨1, _⟩ => exact lhsIdx_val_1 D hlb hln _ _
      | ⟨2, _⟩ => exact (D.lhsIdx_val_of_single hlc _ _).trans hd)
  have er : D.rhsIdx (ix3 p q r) ((contrEquiv1 D k (contr_rank_eq_one D hlc) (contr_size_eq D hlc)).symm d) = ix3 p r d :=
    funext fun ax => Fin.ext (by
      match ax with
      | ⟨0, _⟩ => exact rhsIdx_val_0 D hrb _ _
      | ⟨1, _⟩ => exact rhsIdx_val_1 D hlb hln hrb hrn _ _
      | ⟨2, _⟩ => exact (D.rhsIdx_val_of_single hrc _ _).trans hd)
  rw [el, er]

end Contraction

end Cert.LibBatchLayout

end
-- ==== Proof.PayValue.lean ====
/-
  The arithmetic of the kernel body read at one index, over the extended reals. For a tile of 512 query points and a
  tile of 512 key points (in each of 8 batches) the body computes, for query point `r` of batch `b`, the minimum of
  the running value with the infimum over the 512 key points `m'` of |p|² + |q|² − 2 p·q, where the squared norms
  are sums over the three coordinates and the inner products come from the contraction of the two tiles over the
  coordinate axis; the first body writes the top element everywhere.
-/
import proofs.«131507_j34351148433808_1_alg».proof.Proof.Gen.KernelIdeal.Skeleton
import proofs.«131507_j34351148433808_1_alg».proof.Proof.Spec
import proofs.«131507_j34351148433808_1_alg».proof.Proof.LibLaneMin
import proofs.«131507_j34351148433808_1_alg».proof.Proof.LibBatchLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Idealize.SL.Sem Cert.KernelIdeal Cert.KernelIdeal.Gen
open Cert.LibLaneMin Cert.LibBatchLayout

/-! ## The sum over the coordinate axis -/

/-- The sum over the three coordinates of a `[8, 512, 3]` tile, at point `r` of batch `b`. -/
theorem laneSum_apply (src : FVec Ideal S8x512x3 .f32) (h : S8x512x3.Reduces [2] S8x512) (hφ : FKind.Formats .f32)
    (hacc : (0x00000000#32 : BitVec (FTy.bits .f32)) = FKind.add.neutral .f32 hφ) (b : Fin 8) (r : Fin 512) :
    multiReduction (F := Ideal) .add [2] S8x512 src 0x00000000#32 h hφ hacc (ix2 b r) = ∑ d : Fin 3, src (ix3 b r d) := by
  refine (Ideal.multiReduction_add_single src 0x00000000#32 h hφ hacc (ix2 b r)).trans ?_
  refine Finset.sum_congr rfl fun d _ => congrArg src (funext fun a => Fin.ext ?_)
  match a with
  | ⟨0, _⟩ => rfl
  | ⟨1, _⟩ => rfl
  | ⟨2, _⟩ => rfl

/-! ## The two payloads at an index -/

/-- The first body's payload is the top element everywhere. -/
theorem pay1_apply (j : S8x512.Idx) : k0_pay1 (F := Ideal) j = (⊤ : EReal) := by
  unfold k0_pay1
  refine (congrFun (shapeCast_self _ _) j).trans ?_
  exact ofBits_inf_f32

/-- The same for the second kernel's first body. -/
theorem pay1_apply' (j : S8x512.Idx) : k1_pay1 (F := Ideal) j = (⊤ : EReal) := by
  unfold k1_pay1
  refine (congrFun (shapeCast_self _ _) j).trans ?_
  exact ofBits_inf_f32

/-- The body's payload at query point `r` of batch `b`: the running value's minimum with the infimum, over the tile's key
    points, of the expanded squared distance. -/
theorem pay2_apply (x0 x1 : FVec Ideal S8x512x3 .f32) (v : FVec Ideal S8x512 .f32) (b : Fin 8) (r : Fin 512) :
    k0_pay2 (F := Ideal) x0 x1 v (ix2 b r)
      = min (v (ix2 b r))
          (⨅ m' : Fin 512, ((∑ d : Fin 3, x0 (ix3 b r d) * x0 (ix3 b r d)) + (∑ d : Fin 3, x1 (ix3 b m' d) * x1 (ix3 b m' d)))
              - Cert.Chamfer.two * ∑ d : Fin 3, x0 (ix3 b r d) * x1 (ix3 b m' d)) := by
  unfold k0_pay2
  dsimp only
  refine (congrFun (shapeCast_self _ _) (ix2 b r)).trans ?_
  refine (minimumf_apply _ _ _).trans ?_
  refine congrArg (min (v (ix2 b r))) ?_
  refine (multiReduction_minimumf_inf_abc_ab_apply _ _ _ _ b r).trans ?_
  refine iInf_congr fun m' => ?_
  refine (subf_apply _ _ _).trans ?_
  refine congrArg₂ (· - ·) ?_ ?_
  · refine (addf_apply _ _ _).trans ?_
    refine congrArg₂ (· + ·) ?_ ?_
    · refine (broadcastTo_ab1_abc_apply _ _ b r m').trans ?_
      refine (shapeCast_ab_ab1_apply _ _ b r (0 : Fin 1)).trans ?_
      exact laneSum_apply _ _ _ _ b r
    · refine (broadcastTo_a1c_abc_apply _ _ b r m').trans ?_
      refine (shapeCast_ab_a1b_apply _ _ b (0 : Fin 1) m').trans ?_
      exact laneSum_apply _ _ _ _ b m'
  · refine (mulf_apply _ _ _).trans ?_
    refine congrArg (Cert.Chamfer.two * ·) ?_
    exact matmul_abk_ack_zero_apply dot_S8x512x3_S8x512x3_S8x512x512_2_2_1_1_0_0 rfl rfl rfl rfl rfl rfl none _ _ b r m'

/-- The same for the second kernel's body. -/
theorem pay2_apply' (x0 x1 : FVec Ideal S8x512x3 .f32) (v : FVec Ideal S8x512 .f32) (b : Fin 8) (r : Fin 512) :
    k1_pay2 (F := Ideal) x0 x1 v (ix2 b r)
      = min (v (ix2 b r))
          (⨅ m' : Fin 512, ((∑ d : Fin 3, x0 (ix3 b r d) * x0 (ix3 b r d)) + (∑ d : Fin 3, x1 (ix3 b m' d) * x1 (ix3 b m' d)))
              - Cert.Chamfer.two * ∑ d : Fin 3, x0 (ix3 b r d) * x1 (ix3 b m' d)) := by
  unfold k1_pay2
  dsimp only
  refine (congrFun (shapeCast_self _ _) (ix2 b r)).trans ?_
  refine (minimumf_apply _ _ _).trans ?_
  refine congrArg (min (v (ix2 b r))) ?_
  refine (multiReduction_minimumf_inf_abc_ab_apply _ _ _ _ b r).trans ?_
  refine iInf_congr fun m' => ?_
  refine (subf_apply _ _ _).trans ?_
  refine congrArg₂ (· - ·) ?_ ?_
  · refine (addf_apply _ _ _).trans ?_
    refine congrArg₂ (· + ·) ?_ ?_
    · refine (broadcastTo_ab1_abc_apply _ _ b r m').trans ?_
      refine (shapeCast_ab_ab1_apply _ _ b r (0 : Fin 1)).trans ?_
      exact laneSum_apply _ _ _ _ b r
    · refine (broadcastTo_a1c_abc_apply _ _ b r m').trans ?_
      refine (shapeCast_ab_a1b_apply _ _ b (0 : Fin 1) m').trans ?_
      exact laneSum_apply _ _ _ _ b m'
  · refine (mulf_apply _ _ _).trans ?_
    refine congrArg (Cert.Chamfer.two * ·) ?_
    exact matmul_abk_ack_zero_apply dot_S8x512x3_S8x512x3_S8x512x512_2_2_1_1_0_0 rfl rfl rfl rfl rfl rfl none _ _ b r m'

end Cert.KernelIdeal.PayValue

end
-- ==== Proof.ValKernelIdeal.Reg0Value.lean ====
/-
  Region 0 of the nearest-neighbour kernel, read as mathematics: what the 64 grid points leave in the output array.
  A point t is (query tile t / 8, key tile t % 8). Each point's body leaves in the running-minimum scratch the payload
  of the point's query block, key block and the scratch's contents before (the constant +∞ block at a first key tile);
  at a last key tile the output block is stored with it. So after point t the scratch holds, at row r of batch b, the
  infimum over the key points of tiles 0 … t % 8 of the expanded squared distance from query point 512 (t / 8) + r;
  after the last key tile that is the nearest-neighbour distance, and the eight query tiles' output blocks cover the
  output array.
-/
import proofs.«131507_j34351148433808_1_alg».proof.Proof.FrKernelIdeal.Reg0
import proofs.«131507_j34351148433808_1_alg».proof.Proof.Spec
import proofs.«131507_j34351148433808_1_alg».proof.Proof.InfBlocks
import proofs.«131507_j34351148433808_1_alg».proof.Proof.PayValue
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

/-! ## The pieces each kind of point leaves are the body's payloads -/

theorem hz0_2 : (![0, 0] : Fin 2 → Nat) = fun _ => 0 := funext fun a => by fin_cases a <;> rfl
theorem hz0_3 : (![0, 0, 0] : Fin 3 → Nat) = fun _ => 0 := funext fun a => by fin_cases a <;> rfl

/-- Where the key tile is neither first nor last, the scratch is left at the payload of the two blocks and the scratch's
    contents before. -/
theorem sout0_B_eq (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 x1 : Vec F S8x512x3 .f32) (xs0 : Vec F S8x512 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz0_2]
  simp only [View.readAt_eq_ld, harg2.read_unread, harg3.read_unread, harg5.read_unread,
    View.ld_unit_zero (S := S8x512x3) hz0_3, View.ld_unit_zero (S := S8x512) hz0_2]

/-- Where the key tile is the first, the scratch is reset to the constant block and then left at the payload of the two
    blocks and that constant block. -/
theorem sout0_A_eq (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 x1 : Vec F S8x512x3 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x512) hz0_2, View.readCov_unit_zero (S := S8x512) _ hz0_2]
  simp only [View.readAt_eq_ld, harg2.read_unread, harg3.read_unread,
    View.ld_unit_zero (S := S8x512x3) hz0_3]

/-- Where the key tile is the last, the output block is stored with the scratch just written: the same payload. -/
theorem out0_C_eq (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 x1 : Vec F S8x512x3 .f32) (xs0 : Vec F S8x512 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz0_2, View.readCov_unit_zero (S := S8x512) _ hz0_2]
  simp only [View.readAt_eq_ld, harg2.read_unread, harg3.read_unread, harg5.read_unread,
    View.ld_unit_zero (S := S8x512x3) hz0_3, View.ld_unit_zero (S := S8x512) hz0_2]

/-- … and the scratch there is left at that payload too. -/
theorem sout0_C_eq (c : Dev nD) (i : grid0.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 x1 : Vec F S8x512x3 .f32) (xs0 : Vec F S8x512 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz0_2]
  simp only [View.readAt_eq_ld, harg2.read_unread, harg3.read_unread, harg5.read_unread,
    View.ld_unit_zero (S := S8x512x3) hz0_3, View.ld_unit_zero (S := S8x512) hz0_2]

/-! ## The scratch after each point, in closed form -/

section
variable (V : (c : Dev nD) → (b : Ref sig .tc) → Buf (Elt F) ((c : Thread nD τ).loc b))

/-- The running minimum after point `n`: at a first key tile the payload of the point's blocks and the constant block,
    elsewhere the payload of the point's blocks and the running minimum the point before left. -/
def accS0 (c : Dev nD) : (n : ℕ) → n < cfg0.N → Vec F S8x512 .f32
  | 0, h => k0_pay2 (iblk0 V c 0 ⟨0, h⟩) (iblk0 V c 1 ⟨0, h⟩) k0_pay1
  | n + 1, h =>
    if (n + 1) % 8 = 0 then k0_pay2 (iblk0 V c 0 ⟨n + 1, h⟩) (iblk0 V c 1 ⟨n + 1, h⟩) k0_pay1
    else k0_pay2 (iblk0 V c 0 ⟨n + 1, h⟩) (iblk0 V c 1 ⟨n + 1, h⟩) (accS0 c n (Nat.lt_of_succ_lt h))

theorem accS0_zero (c : Dev nD) (h : 0 < cfg0.N) :
    accS0 V c 0 h = k0_pay2 (iblk0 V c 0 ⟨0, h⟩) (iblk0 V c 1 ⟨0, h⟩) k0_pay1 := rfl
theorem accS0_reset (c : Dev nD) (n : ℕ) (h : n + 1 < cfg0.N) (h0 : (n + 1) % 8 = 0) :
    accS0 V c (n + 1) h = k0_pay2 (iblk0 V c 0 ⟨n + 1, h⟩) (iblk0 V c 1 ⟨n + 1, h⟩) k0_pay1 := by
  unfold accS0; rw [if_pos h0]
theorem accS0_step (c : Dev nD) (n : ℕ) (h : n + 1 < cfg0.N) (h0 : ¬(n + 1) % 8 = 0) :
    accS0 V c (n + 1) h = k0_pay2 (iblk0 V c 0 ⟨n + 1, h⟩) (iblk0 V c 1 ⟨n + 1, h⟩) (accS0 V c n (Nat.lt_of_succ_lt h)) := by
  rw [accS0]; rw [if_neg h0]

/-- After every point the scratch holds the running minimum. -/
theorem outsAt0_snd (c : Dev nD) : ∀ (n : ℕ) (h : n < cfg0.N), (outsAt0 V c n h).2 = accS0 V c n h
  | 0, h => by
    rw [outsAt0_A V c ⟨0, h⟩ rfl (by show ¬(0 % 8 = 7); decide)]
    dsimp only
    rw [sout0_A_eq, accS0_zero]
  | n + 1, h => by
    by_cases h0 : (n + 1) % 8 = 0
    · have h1 : ¬(n + 1) % 8 = 7 := by omega
      rw [outsAt0_A V c ⟨n + 1, h⟩ h0 h1]
      dsimp only
      rw [sout0_A_eq, accS0_reset V c n h h0]
    · by_cases h1 : (n + 1) % 8 = 7
      · rw [outsAt0_C V c ⟨n + 1, h⟩ h0 h1]
        dsimp only
        rw [sout0_C_eq, accS0_step V c n h h0]
        exact congrArg (k0_pay2 _ _) (outsAt0_snd c n _)
      · rw [outsAt0_B V c ⟨n + 1, h⟩ h0 h1]
        dsimp only
        rw [sout0_B_eq, accS0_step V c n h h0]
        exact congrArg (k0_pay2 _ _) (outsAt0_snd c n _)

/-- At a last key tile the output block is stored with the running minimum. -/
theorem outsAt0_fst (c : Dev nD) (n : ℕ) (h : n < cfg0.N) (h7 : n % 8 = 7) : (outsAt0 V c n h).1 = accS0 V c n h := by
  have h0 : ¬n % 8 = 0 := by omega
  refine Eq.trans ?_ (outsAt0_snd V c n h)
  rw [outsAt0_C V c ⟨n, h⟩ h0 h7]
  dsimp only
  rw [out0_C_eq, sout0_C_eq]

end

/-! ## The blocks of the two clouds and of the output, read at an index -/

/-- Point number `k` of a cloud (reduced to the range of the 4096 points, so that it is total in `k`). -/
def pt0 (k : ℕ) : Fin 4096 := ⟨k % 4096, Nat.mod_lt _ (by decide)⟩

/-- The block indices over the grid: the query block moves with t / 8, the key block with t % 8, the output block with
    t / 8; no block moves along the batch or the coordinate axis. -/
theorem idx0 : ∀ t : Fin cfg0.N, win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 :=
  (by decide +kernel : ∀ t : Fin grid0.N, win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8)

section
variable (V : (c : Dev nD) → (b : Ref sig .tc) → Buf (Elt Ideal) ((c : Thread nD τ).loc b))

/-- Row r of the query block at point t is point 512 (t / 8) + r of the first cloud. -/
theorem iblk0_0_apply (c : Dev nD) (t : Fin cfg0.N) (b : Fin 8) (r : Fin 512) (d : Fin 3) :
    (iblk0 V c 0 t : Vec Ideal S8x512x3 .f32) (ix3 b r d) = (V c main_arg0 : FVec Ideal S8x4096x3 .f32) (ix3 b (pt0 (512 * (t.val / 8) + r.val)) d) := by
  obtain ⟨e0, e1, e2, -⟩ := idx0 t
  have ht : t.val < 64 := lt_of_lt_of_eq t.isLt N_0
  show V c main_arg0 (((cfg0.win 0).blk t).view.emb (ix3 b r d)) = _
  refine congrArg (V c main_arg0) (funext fun a => Fin.ext ?_)
  match a with
  | ⟨0, _⟩ => show win0_0.index t (0 : Fin 3) * 8 + 1 * b.val = b.val; rw [e0]; omega
  | ⟨1, _⟩ => show win0_0.index t (1 : Fin 3) * 512 + 1 * r.val = (512 * (t.val / 8) + r.val) % 4096; rw [e1]; omega
  | ⟨2, _⟩ => show win0_0.index t (2 : Fin 3) * 3 + 1 * d.val = d.val; rw [e2]; omega

/-- Row m' of the key block at point t is point 512 (t % 8) + m' of the second cloud. -/
theorem iblk0_1_apply (c : Dev nD) (t : Fin cfg0.N) (b : Fin 8) (r : Fin 512) (d : Fin 3) :
    (iblk0 V c 1 t : Vec Ideal S8x512x3 .f32) (ix3 b r d) = (V c main_arg1 : FVec Ideal S8x4096x3 .f32) (ix3 b (pt0 (512 * (t.val % 8) + r.val)) d) := by
  obtain ⟨-, -, -, e0, e1, e2, -⟩ := idx0 t
  have ht : t.val < 64 := lt_of_lt_of_eq t.isLt N_0
  show V c main_arg1 (((cfg0.win 1).blk t).view.emb (ix3 b r d)) = _
  refine congrArg (V c main_arg1) (funext fun a => Fin.ext ?_)
  match a with
  | ⟨0, _⟩ => show win0_1.index t (0 : Fin 3) * 8 + 1 * b.val = b.val; rw [e0]; omega
  | ⟨1, _⟩ => show win0_1.index t (1 : Fin 3) * 512 + 1 * r.val = (512 * (t.val % 8) + r.val) % 4096; rw [e1]; omega
  | ⟨2, _⟩ => show win0_1.index t (2 : Fin 3) * 3 + 1 * d.val = d.val; rw [e2]; omega

end

/-! ## One point's payload over blocks of the clouds -/

/-- Over a query block that is rows 512 q … of X and a key block that is rows 512 k … of Y, the payload at row r is the
    minimum of the scratch's entry and the infimum, over the key block's 512 points, of the expanded squared distance. -/
theorem pay2_blocks0 (X Y : FVec Ideal S8x4096x3 .f32) (x0 x1 : FVec Ideal S8x512x3 .f32) (v : FVec Ideal S8x512 .f32) (q k : ℕ)
    (hx0 : ∀ (b : Fin 8) (r : Fin 512) (d : Fin 3), x0 (ix3 b r d) = X (ix3 b (pt0 (512 * q + r.val)) d))
    (hx1 : ∀ (b : Fin 8) (r : Fin 512) (d : Fin 3), x1 (ix3 b r d) = Y (ix3 b (pt0 (512 * k + r.val)) d))
    (b : Fin 8) (r : Fin 512) :
    k0_pay2 (F := Ideal) x0 x1 v (ix2 b r)
      = min (v (ix2 b r)) (⨅ m' : Fin 512, Cert.Chamfer.dist X Y b (pt0 (512 * q + r.val)) (pt0 (512 * k + m'.val))) := by
  rw [PayValue.pay2_apply]
  unfold Cert.Chamfer.dist Cert.Chamfer.sqn Cert.Chamfer.dot
  simp only [hx0, hx1]

/-- At a first key tile the scratch is reset to +∞ first: the payload is the infimum over the first 512 key points. -/
theorem first_tile0 (X Y : FVec Ideal S8x4096x3 .f32) (x0 x1 : FVec Ideal S8x512x3 .f32) (n : ℕ) (h0 : n % 8 = 0)
    (hx0 : ∀ (b : Fin 8) (r : Fin 512) (d : Fin 3), x0 (ix3 b r d) = X (ix3 b (pt0 (512 * (n / 8) + r.val)) d))
    (hx1 : ∀ (b : Fin 8) (r : Fin 512) (d : Fin 3), x1 (ix3 b r d) = Y (ix3 b (pt0 (512 * (n % 8) + r.val)) d))
    (b : Fin 8) (r : Fin 512) :
    k0_pay2 (F := Ideal) x0 x1 (k0_pay1 (F := Ideal)) (ix2 b r)
      = ⨅ (m : Fin 4096) (_ : m.val < 512 * (n % 8 + 1)), Cert.Chamfer.dist X Y b (pt0 (512 * (n / 8) + r.val)) m := by
  rw [pay2_blocks0 X Y x0 x1 (k0_pay1 (F := Ideal)) (n / 8) (n % 8) hx0 hx1, PayValue.pay1_apply, min_top_left, h0]
  refine Eq.trans ?_ (Cert.Chamfer.iInf_first_block (fun m => Cert.Chamfer.dist X Y b (pt0 (512 * (n / 8) + r.val)) m)).symm
  refine iInf_congr fun m' => congrArg (Cert.Chamfer.dist X Y b (pt0 (512 * (n / 8) + r.val))) (Fin.ext ?_)
  show (512 * 0 + m'.val) % 4096 = m'.val
  have := m'.isLt; omega

/-- At a later key tile the scratch carries the infimum over the earlier tiles: the payload extends it by one tile. -/
theorem next_tile0 (X Y : FVec Ideal S8x4096x3 .f32) (x0 x1 : FVec Ideal S8x512x3 .f32) (v : FVec Ideal S8x512 .f32) (n : ℕ) (h0 : ¬(n + 1) % 8 = 0)
    (hx0 : ∀ (b : Fin 8) (r : Fin 512) (d : Fin 3), x0 (ix3 b r d) = X (ix3 b (pt0 (512 * ((n + 1) / 8) + r.val)) d))
    (hx1 : ∀ (b : Fin 8) (r : Fin 512) (d : Fin 3), x1 (ix3 b r d) = Y (ix3 b (pt0 (512 * ((n + 1) % 8) + r.val)) d))
    (b : Fin 8) (r : Fin 512)
    (hv : v (ix2 b r) = ⨅ (m : Fin 4096) (_ : m.val < 512 * (n % 8 + 1)), Cert.Chamfer.dist X Y b (pt0 (512 * (n / 8) + r.val)) m) :
    k0_pay2 (F := Ideal) x0 x1 v (ix2 b r)
      = ⨅ (m : Fin 4096) (_ : m.val < 512 * ((n + 1) % 8 + 1)), Cert.Chamfer.dist X Y b (pt0 (512 * ((n + 1) / 8) + r.val)) m := by
  have e1 : (n + 1) / 8 = n / 8 := by omega
  have e2 : (n + 1) % 8 = n % 8 + 1 := by omega
  have hk : n % 8 + 1 < 8 := by omega
  rw [pay2_blocks0 X Y x0 x1 v ((n + 1) / 8) ((n + 1) % 8) hx0 hx1, hv, e1, e2]
  refine Eq.trans ?_ (Cert.Chamfer.iInf_next_block (fun m => Cert.Chamfer.dist X Y b (pt0 (512 * (n / 8) + r.val)) m) (n % 8) hk).symm
  refine congrArg (min _) (iInf_congr fun m' => congrArg (Cert.Chamfer.dist X Y b (pt0 (512 * (n / 8) + r.val))) (Fin.ext ?_))
  show (512 * (n % 8 + 1) + m'.val) % 4096 = 512 * (n % 8 + 1) + m'.val
  have := m'.isLt; omega

/-! ## The running minimum, and what is written back -/

section
variable (V : (c : Dev nD) → (b : Ref sig .tc) → Buf (Elt Ideal) ((c : Thread nD τ).loc b))

/-- After point n the scratch holds, at row r of batch b, the infimum over the key points of tiles 0 … n % 8 of the
    expanded squared distance from query point 512 (n / 8) + r. -/
theorem accS0_apply (c : Dev nD) : ∀ (n : ℕ) (h : n < cfg0.N) (b : Fin 8) (r : Fin 512),
    accS0 V c n h (ix2 b r)
      = ⨅ (m : Fin 4096) (_ : m.val < 512 * (n % 8 + 1)), Cert.Chamfer.dist (V c main_arg0) (V c main_arg1) b (pt0 (512 * (n / 8) + r.val)) m
  | 0, h, b, r => by
    rw [accS0_zero]
    exact first_tile0 (V c main_arg0) (V c main_arg1) (iblk0 V c 0 ⟨0, h⟩) (iblk0 V c 1 ⟨0, h⟩) 0 rfl
      (fun b r d => iblk0_0_apply V c ⟨0, h⟩ b r d) (fun b r d => iblk0_1_apply V c ⟨0, h⟩ b r d) b r
  | n + 1, h, b, r => by
    by_cases h0 : (n + 1) % 8 = 0
    · rw [accS0_reset V c n h h0]
      exact first_tile0 (V c main_arg0) (V c main_arg1) (iblk0 V c 0 ⟨n + 1, h⟩) (iblk0 V c 1 ⟨n + 1, h⟩) (n + 1) h0
        (fun b r d => iblk0_0_apply V c ⟨n + 1, h⟩ b r d) (fun b r d => iblk0_1_apply V c ⟨n + 1, h⟩ b r d) b r
    · rw [accS0_step V c n h h0]
      exact next_tile0 (V c main_arg0) (V c main_arg1) (iblk0 V c 0 ⟨n + 1, h⟩) (iblk0 V c 1 ⟨n + 1, h⟩)
        (accS0 V c n (Nat.lt_of_succ_lt h)) n h0
        (fun b r d => iblk0_0_apply V c ⟨n + 1, h⟩ b r d) (fun b r d => iblk0_1_apply V c ⟨n + 1, h⟩ b r d) b r
        (accS0_apply c n (Nat.lt_of_succ_lt h) b r)

/-- After a last key tile the scratch holds the nearest-neighbour distances of the query tile's 512 points. -/
theorem accS0_last (c : Dev nD) (n : ℕ) (h : n < cfg0.N) (h7 : n % 8 = 7) (b : Fin 8) (r : Fin 512) :
    accS0 V c n h (ix2 b r) = Cert.Chamfer.nn (V c main_arg0) (V c main_arg1) b (pt0 (512 * (n / 8) + r.val)) := by
  rw [accS0_apply V c n h b r, h7]
  exact Cert.Chamfer.iInf_all_blocks (fun m => Cert.Chamfer.dist (V c main_arg0) (V c main_arg1) b (pt0 (512 * (n / 8) + r.val)) m)

/-- What a last key tile's point writes back is its block of the nearest-neighbour array. -/
theorem flushed0_eq (c : Dev nD) (t : Fin cfg0.N) (hf : (cfg0.win 2).flush t = true) :
    (dat0 V c).flushed 2 t = ((cfg0.win 2).blk t).view.read (Elt Ideal) (Cert.Chamfer.nnArr (V c main_arg0) (V c main_arg1)) := by
  have h7 : t.val % 8 = 7 := (flush0_2 t).mp hf
  have ht : t.val < 64 := lt_of_lt_of_eq t.isLt N_0
  obtain ⟨-, -, -, -, -, -, e0, e1⟩ := idx0 t
  show (cfg0.win 2).cut (grid0.coords t) ((dat0 V c).after 2 t) = _
  rw [after0_2, outsAt0_fst V c t.val t.isLt h7]
  funext j
  have hj0 : (j 0).val < 8 := (j 0).isLt
  have hj1 : (j 1).val < 512 := (j 1).isLt
  have ej : (cfg0.win 2).xinj (grid0.coords t) j = ix2 (⟨(j 0).val, hj0⟩ : Fin 8) (⟨(j 1).val, hj1⟩ : Fin 512) :=
    funext fun a => match a with | ⟨0, _⟩ => rfl | ⟨1, _⟩ => rfl
  show accS0 V c t.val t.isLt ((cfg0.win 2).xinj (grid0.coords t) j)
    = Cert.Chamfer.nnArr (V c main_arg0) (V c main_arg1) (((cfg0.win 2).blk t).view.emb j)
  rw [ej]
  refine (accS0_last V c t.val t.isLt h7 _ _).trans ?_
  show Cert.Chamfer.nn (V c main_arg0) (V c main_arg1) ⟨(j 0).val, hj0⟩ (pt0 (512 * (t.val / 8) + (j 1).val))
    = Cert.Chamfer.nn (V c main_arg0) (V c main_arg1) ((((cfg0.win 2).blk t).view.emb j) 0) ((((cfg0.win 2).blk t).view.emb j) 1)
  refine congrArg₂ (Cert.Chamfer.nn (V c main_arg0) (V c main_arg1)) (Fin.ext ?_) (Fin.ext ?_)
  · show (j 0).val = win0_2.index t (0 : Fin 2) * 8 + 1 * (j 0).val
    rw [e0]; omega
  · show (512 * (t.val / 8) + (j 1).val) % 4096 = win0_2.index t (1 : Fin 2) * 512 + 1 * (j 1).val
    rw [e1]; omega

/-- Region 0 leaves the output array at the nearest-neighbour array of the first cloud against the second: row n of
    the output lies in the block written back at the last key tile of query tile n / 512. -/
theorem final0 (c : Dev nD) :
    (dat0 (F := Ideal) V c).arrAt 2 cfg0.N = Cert.Chamfer.nnArr (V c main_arg0) (V c main_arg1) :=
  (dat0 V c).arrAt_eq_of_cover 2 _ (flushed0_eq V c) fun i => by
    have hi0 : (i 0 : Nat) < 8 := (i 0).isLt
    have hi1 : (i 1 : Nat) < 4096 := (i 1).isLt
    have hN : cfg0.N = 64 := N_0
    let t : Fin cfg0.N := ⟨8 * ((i 1 : Nat) / 512) + 7, by rw [hN]; omega⟩
    have h7 : t.val % 8 = 7 := by show (8 * ((i 1 : Nat) / 512) + 7) % 8 = 7; omega
    have hq : t.val / 8 = (i 1 : Nat) / 512 := by show (8 * ((i 1 : Nat) / 512) + 7) / 8 = (i 1 : Nat) / 512; omega
    obtain ⟨-, -, -, -, -, -, e0, e1⟩ := idx0 t
    refine ⟨t, (flush0_2 t).mpr h7, ?_⟩
    show i ∈ ((View.whole main_v0).slice (win0_2.rect t)).set
    rw [View.set_slice_whole, Rect.mem_set_unit]
    intro a
    match a with
    | ⟨0, _⟩ =>
      show win0_2.index t (0 : Fin 2) * win0_2.size 0 ≤ (i 0 : Nat) ∧ (i 0 : Nat) < win0_2.index t (0 : Fin 2) * win0_2.size 0 + win0_2.xsize (grid0.coords t) 0
      rw [e0, show win0_2.size 0 = 8 from rfl, show win0_2.xsize (grid0.coords t) 0 = 8 from rfl]; omega
    | ⟨1, _⟩ =>
      show win0_2.index t (1 : Fin 2) * win0_2.size 1 ≤ (i 1 : Nat) ∧ (i 1 : Nat) < win0_2.index t (1 : Fin 2) * win0_2.size 1 + win0_2.xsize (grid0.coords t) 1
      rw [e1, hq, show win0_2.size 1 = 512 from rfl, show win0_2.xsize (grid0.coords t) 1 = 512 from rfl]; omega

end

end Cert.KernelIdeal.Val

end
-- ==== Proof.ValKernelIdeal.Reg1Value.lean ====
/-
  Region 1 of the nearest-neighbour kernel, read as mathematics: what the 64 grid points leave in the output array.
  A point t is (query tile t / 8, key tile t % 8). Each point's body leaves in the running-minimum scratch the payload
  of the point's query block, key block and the scratch's contents before (the constant +∞ block at a first key tile);
  at a last key tile the output block is stored with it. So after point t the scratch holds, at row r of batch b, the
  infimum over the key points of tiles 0 … t % 8 of the expanded squared distance from query point 512 (t / 8) + r;
  after the last key tile that is the nearest-neighbour distance, and the eight query tiles' output blocks cover the
  output array.
-/
import proofs.«131507_j34351148433808_1_alg».proof.Proof.FrKernelIdeal.Reg1
import proofs.«131507_j34351148433808_1_alg».proof.Proof.Spec
import proofs.«131507_j34351148433808_1_alg».proof.Proof.InfBlocks
import proofs.«131507_j34351148433808_1_alg».proof.Proof.PayValue
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

/-! ## The pieces each kind of point leaves are the body's payloads -/

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- Where the key tile is neither first nor last, the scratch is left at the payload of the two blocks and the scratch's
    contents before. -/
theorem sout1_B_eq (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : ¬cond1_1 i)
    (x0 x1 : Vec F S8x512x3 .f32) (xs0 : Vec F S8x512 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  rw [View.canon_unit_zero hz1_2]
  simp only [View.readAt_eq_ld, harg2.read_unread, harg3.read_unread, harg5.read_unread,
    View.ld_unit_zero (S := S8x512x3) hz1_3, View.ld_unit_zero (S := S8x512) hz1_2]

/-- Where the key tile is the first, the scratch is reset to the constant block and then left at the payload of the two
    blocks and that constant block. -/
theorem sout1_A_eq (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : cond1_0 i) (hc1 : ¬cond1_1 i)
    (x0 x1 : Vec F S8x512x3 .f32) :
    sout1_A_0 c i arg2 harg2 arg3 harg3 arg4 harg4 arg5 harg5 hc0 hc1 x0 x1 = k1_pay2 x0 x1 k1_pay1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S8x512) hz1_2, View.readCov_unit_zero (S := S8x512) _ hz1_2]
  simp only [View.readAt_eq_ld, harg2.read_unread, harg3.read_unread,
    View.ld_unit_zero (S := S8x512x3) hz1_3]

/-- Where the key tile is the last, the output block is stored with the scratch just written: the same payload. -/
theorem out1_C_eq (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 x1 : Vec F S8x512x3 .f32) (xs0 : Vec F S8x512 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz1_2, View.readCov_unit_zero (S := S8x512) _ hz1_2]
  simp only [View.readAt_eq_ld, harg2.read_unread, harg3.read_unread, harg5.read_unread,
    View.ld_unit_zero (S := S8x512x3) hz1_3, View.ld_unit_zero (S := S8x512) hz1_2]

/-- … and the scratch there is left at that payload too. -/
theorem sout1_C_eq (c : Dev nD) (i : grid1.Coords) (arg2 : Memref sig .tc .vmem S8x512x3 .f32) (harg2 : arg2.IsWhole) (arg3 : Memref sig .tc .vmem S8x512x3 .f32) (harg3 : arg3.IsWhole) (arg4 : Memref sig .tc .vmem S8x512 .f32) (harg4 : arg4.IsWhole) (arg5 : Memref sig .tc .vmem S8x512 .f32) (harg5 : arg5.IsWhole) (hc0 : ¬cond1_0 i) (hc1 : cond1_1 i)
    (x0 x1 : Vec F S8x512x3 .f32) (xs0 : Vec F S8x512 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz1_2]
  simp only [View.readAt_eq_ld, harg2.read_unread, harg3.read_unread, harg5.read_unread,
    View.ld_unit_zero (S := S8x512x3) hz1_3, View.ld_unit_zero (S := S8x512) hz1_2]

/-! ## The scratch after each point, in closed form -/

section
variable (V : (c : Dev nD) → (b : Ref sig .tc) → Buf (Elt F) ((c : Thread nD τ).loc b))

/-- The running minimum after point `n`: at a first key tile the payload of the point's blocks and the constant block,
    elsewhere the payload of the point's blocks and the running minimum the point before left. -/
def accS1 (c : Dev nD) : (n : ℕ) → n < cfg1.N → Vec F S8x512 .f32
  | 0, h => k1_pay2 (iblk1 V c 0 ⟨0, h⟩) (iblk1 V c 1 ⟨0, h⟩) k1_pay1
  | n + 1, h =>
    if (n + 1) % 8 = 0 then k1_pay2 (iblk1 V c 0 ⟨n + 1, h⟩) (iblk1 V c 1 ⟨n + 1, h⟩) k1_pay1
    else k1_pay2 (iblk1 V c 0 ⟨n + 1, h⟩) (iblk1 V c 1 ⟨n + 1, h⟩) (accS1 c n (Nat.lt_of_succ_lt h))

theorem accS1_zero (c : Dev nD) (h : 0 < cfg1.N) :
    accS1 V c 0 h = k1_pay2 (iblk1 V c 0 ⟨0, h⟩) (iblk1 V c 1 ⟨0, h⟩) k1_pay1 := rfl
theorem accS1_reset (c : Dev nD) (n : ℕ) (h : n + 1 < cfg1.N) (h0 : (n + 1) % 8 = 0) :
    accS1 V c (n + 1) h = k1_pay2 (iblk1 V c 0 ⟨n + 1, h⟩) (iblk1 V c 1 ⟨n + 1, h⟩) k1_pay1 := by
  unfold accS1; rw [if_pos h0]
theorem accS1_step (c : Dev nD) (n : ℕ) (h : n + 1 < cfg1.N) (h0 : ¬(n + 1) % 8 = 0) :
    accS1 V c (n + 1) h = k1_pay2 (iblk1 V c 0 ⟨n + 1, h⟩) (iblk1 V c 1 ⟨n + 1, h⟩) (accS1 V c n (Nat.lt_of_succ_lt h)) := by
  rw [accS1]; rw [if_neg h0]

/-- After every point the scratch holds the running minimum. -/
theorem outsAt1_snd (c : Dev nD) : ∀ (n : ℕ) (h : n < cfg1.N), (outsAt1 V c n h).2 = accS1 V c n h
  | 0, h => by
    rw [outsAt1_A V c ⟨0, h⟩ rfl (by show ¬(0 % 8 = 7); decide)]
    dsimp only
    rw [sout1_A_eq, accS1_zero]
  | n + 1, h => by
    by_cases h0 : (n + 1) % 8 = 0
    · have h1 : ¬(n + 1) % 8 = 7 := by omega
      rw [outsAt1_A V c ⟨n + 1, h⟩ h0 h1]
      dsimp only
      rw [sout1_A_eq, accS1_reset V c n h h0]
    · by_cases h1 : (n + 1) % 8 = 7
      · rw [outsAt1_C V c ⟨n + 1, h⟩ h0 h1]
        dsimp only
        rw [sout1_C_eq, accS1_step V c n h h0]
        exact congrArg (k1_pay2 _ _) (outsAt1_snd c n _)
      · rw [outsAt1_B V c ⟨n + 1, h⟩ h0 h1]
        dsimp only
        rw [sout1_B_eq, accS1_step V c n h h0]
        exact congrArg (k1_pay2 _ _) (outsAt1_snd c n _)

/-- At a last key tile the output block is stored with the running minimum. -/
theorem outsAt1_fst (c : Dev nD) (n : ℕ) (h : n < cfg1.N) (h7 : n % 8 = 7) : (outsAt1 V c n h).1 = accS1 V c n h := by
  have h0 : ¬n % 8 = 0 := by omega
  refine Eq.trans ?_ (outsAt1_snd V c n h)
  rw [outsAt1_C V c ⟨n, h⟩ h0 h7]
  dsimp only
  rw [out1_C_eq, sout1_C_eq]

end

/-! ## The blocks of the two clouds and of the output, read at an index -/

/-- Point number `k` of a cloud (reduced to the range of the 4096 points, so that it is total in `k`). -/
def pt1 (k : ℕ) : Fin 4096 := ⟨k % 4096, Nat.mod_lt _ (by decide)⟩

/-- The block indices over the grid: the query block moves with t / 8, the key block with t % 8, the output block with
    t / 8; no block moves along the batch or the coordinate axis. -/
theorem idx1 : ∀ t : Fin cfg1.N, win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8 :=
  (by decide +kernel : ∀ t : Fin grid1.N, win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8)

section
variable (V : (c : Dev nD) → (b : Ref sig .tc) → Buf (Elt Ideal) ((c : Thread nD τ).loc b))

/-- Row r of the query block at point t is point 512 (t / 8) + r of the second cloud. -/
theorem iblk1_0_apply (c : Dev nD) (t : Fin cfg1.N) (b : Fin 8) (r : Fin 512) (d : Fin 3) :
    (iblk1 V c 0 t : Vec Ideal S8x512x3 .f32) (ix3 b r d) = (V c main_arg1 : FVec Ideal S8x4096x3 .f32) (ix3 b (pt1 (512 * (t.val / 8) + r.val)) d) := by
  obtain ⟨e0, e1, e2, -⟩ := idx1 t
  have ht : t.val < 64 := lt_of_lt_of_eq t.isLt N_1
  show V c main_arg1 (((cfg1.win 0).blk t).view.emb (ix3 b r d)) = _
  refine congrArg (V c main_arg1) (funext fun a => Fin.ext ?_)
  match a with
  | ⟨0, _⟩ => show win1_0.index t (0 : Fin 3) * 8 + 1 * b.val = b.val; rw [e0]; omega
  | ⟨1, _⟩ => show win1_0.index t (1 : Fin 3) * 512 + 1 * r.val = (512 * (t.val / 8) + r.val) % 4096; rw [e1]; omega
  | ⟨2, _⟩ => show win1_0.index t (2 : Fin 3) * 3 + 1 * d.val = d.val; rw [e2]; omega

/-- Row m' of the key block at point t is point 512 (t % 8) + m' of the first cloud. -/
theorem iblk1_1_apply (c : Dev nD) (t : Fin cfg1.N) (b : Fin 8) (r : Fin 512) (d : Fin 3) :
    (iblk1 V c 1 t : Vec Ideal S8x512x3 .f32) (ix3 b r d) = (V c main_arg0 : FVec Ideal S8x4096x3 .f32) (ix3 b (pt1 (512 * (t.val % 8) + r.val)) d) := by
  obtain ⟨-, -, -, e0, e1, e2, -⟩ := idx1 t
  have ht : t.val < 64 := lt_of_lt_of_eq t.isLt N_1
  show V c main_arg0 (((cfg1.win 1).blk t).view.emb (ix3 b r d)) = _
  refine congrArg (V c main_arg0) (funext fun a => Fin.ext ?_)
  match a with
  | ⟨0, _⟩ => show win1_1.index t (0 : Fin 3) * 8 + 1 * b.val = b.val; rw [e0]; omega
  | ⟨1, _⟩ => show win1_1.index t (1 : Fin 3) * 512 + 1 * r.val = (512 * (t.val % 8) + r.val) % 4096; rw [e1]; omega
  | ⟨2, _⟩ => show win1_1.index t (2 : Fin 3) * 3 + 1 * d.val = d.val; rw [e2]; omega

end

/-! ## One point's payload over blocks of the clouds -/

/-- Over a query block that is rows 512 q … of X and a key block that is rows 512 k … of Y, the payload at row r is the
    minimum of the scratch's entry and the infimum, over the key block's 512 points, of the expanded squared distance. -/
theorem pay2_blocks1 (X Y : FVec Ideal S8x4096x3 .f32) (x0 x1 : FVec Ideal S8x512x3 .f32) (v : FVec Ideal S8x512 .f32) (q k : ℕ)
    (hx0 : ∀ (b : Fin 8) (r : Fin 512) (d : Fin 3), x0 (ix3 b r d) = X (ix3 b (pt1 (512 * q + r.val)) d))
    (hx1 : ∀ (b : Fin 8) (r : Fin 512) (d : Fin 3), x1 (ix3 b r d) = Y (ix3 b (pt1 (512 * k + r.val)) d))
    (b : Fin 8) (r : Fin 512) :
    k1_pay2 (F := Ideal) x0 x1 v (ix2 b r)
      = min (v (ix2 b r)) (⨅ m' : Fin 512, Cert.Chamfer.dist X Y b (pt1 (512 * q + r.val)) (pt1 (512 * k + m'.val))) := by
  rw [PayValue.pay2_apply']
  unfold Cert.Chamfer.dist Cert.Chamfer.sqn Cert.Chamfer.dot
  simp only [hx0, hx1]

/-- At a first key tile the scratch is reset to +∞ first: the payload is the infimum over the first 512 key points. -/
theorem first_tile1 (X Y : FVec Ideal S8x4096x3 .f32) (x0 x1 : FVec Ideal S8x512x3 .f32) (n : ℕ) (h0 : n % 8 = 0)
    (hx0 : ∀ (b : Fin 8) (r : Fin 512) (d : Fin 3), x0 (ix3 b r d) = X (ix3 b (pt1 (512 * (n / 8) + r.val)) d))
    (hx1 : ∀ (b : Fin 8) (r : Fin 512) (d : Fin 3), x1 (ix3 b r d) = Y (ix3 b (pt1 (512 * (n % 8) + r.val)) d))
    (b : Fin 8) (r : Fin 512) :
    k1_pay2 (F := Ideal) x0 x1 (k1_pay1 (F := Ideal)) (ix2 b r)
      = ⨅ (m : Fin 4096) (_ : m.val < 512 * (n % 8 + 1)), Cert.Chamfer.dist X Y b (pt1 (512 * (n / 8) + r.val)) m := by
  rw [pay2_blocks1 X Y x0 x1 (k1_pay1 (F := Ideal)) (n / 8) (n % 8) hx0 hx1, PayValue.pay1_apply', min_top_left, h0]
  refine Eq.trans ?_ (Cert.Chamfer.iInf_first_block (fun m => Cert.Chamfer.dist X Y b (pt1 (512 * (n / 8) + r.val)) m)).symm
  refine iInf_congr fun m' => congrArg (Cert.Chamfer.dist X Y b (pt1 (512 * (n / 8) + r.val))) (Fin.ext ?_)
  show (512 * 0 + m'.val) % 4096 = m'.val
  have := m'.isLt; omega

/-- At a later key tile the scratch carries the infimum over the earlier tiles: the payload extends it by one tile. -/
theorem next_tile1 (X Y : FVec Ideal S8x4096x3 .f32) (x0 x1 : FVec Ideal S8x512x3 .f32) (v : FVec Ideal S8x512 .f32) (n : ℕ) (h0 : ¬(n + 1) % 8 = 0)
    (hx0 : ∀ (b : Fin 8) (r : Fin 512) (d : Fin 3), x0 (ix3 b r d) = X (ix3 b (pt1 (512 * ((n + 1) / 8) + r.val)) d))
    (hx1 : ∀ (b : Fin 8) (r : Fin 512) (d : Fin 3), x1 (ix3 b r d) = Y (ix3 b (pt1 (512 * ((n + 1) % 8) + r.val)) d))
    (b : Fin 8) (r : Fin 512)
    (hv : v (ix2 b r) = ⨅ (m : Fin 4096) (_ : m.val < 512 * (n % 8 + 1)), Cert.Chamfer.dist X Y b (pt1 (512 * (n / 8) + r.val)) m) :
    k1_pay2 (F := Ideal) x0 x1 v (ix2 b r)
      = ⨅ (m : Fin 4096) (_ : m.val < 512 * ((n + 1) % 8 + 1)), Cert.Chamfer.dist X Y b (pt1 (512 * ((n + 1) / 8) + r.val)) m := by
  have e1 : (n + 1) / 8 = n / 8 := by omega
  have e2 : (n + 1) % 8 = n % 8 + 1 := by omega
  have hk : n % 8 + 1 < 8 := by omega
  rw [pay2_blocks1 X Y x0 x1 v ((n + 1) / 8) ((n + 1) % 8) hx0 hx1, hv, e1, e2]
  refine Eq.trans ?_ (Cert.Chamfer.iInf_next_block (fun m => Cert.Chamfer.dist X Y b (pt1 (512 * (n / 8) + r.val)) m) (n % 8) hk).symm
  refine congrArg (min _) (iInf_congr fun m' => congrArg (Cert.Chamfer.dist X Y b (pt1 (512 * (n / 8) + r.val))) (Fin.ext ?_))
  show (512 * (n % 8 + 1) + m'.val) % 4096 = 512 * (n % 8 + 1) + m'.val
  have := m'.isLt; omega

/-! ## The running minimum, and what is written back -/

section
variable (V : (c : Dev nD) → (b : Ref sig .tc) → Buf (Elt Ideal) ((c : Thread nD τ).loc b))

/-- After point n the scratch holds, at row r of batch b, the infimum over the key points of tiles 0 … n % 8 of the
    expanded squared distance from query point 512 (n / 8) + r. -/
theorem accS1_apply (c : Dev nD) : ∀ (n : ℕ) (h : n < cfg1.N) (b : Fin 8) (r : Fin 512),
    accS1 V c n h (ix2 b r)
      = ⨅ (m : Fin 4096) (_ : m.val < 512 * (n % 8 + 1)), Cert.Chamfer.dist (V c main_arg1) (V c main_arg0) b (pt1 (512 * (n / 8) + r.val)) m
  | 0, h, b, r => by
    rw [accS1_zero]
    exact first_tile1 (V c main_arg1) (V c main_arg0) (iblk1 V c 0 ⟨0, h⟩) (iblk1 V c 1 ⟨0, h⟩) 0 rfl
      (fun b r d => iblk1_0_apply V c ⟨0, h⟩ b r d) (fun b r d => iblk1_1_apply V c ⟨0, h⟩ b r d) b r
  | n + 1, h, b, r => by
    by_cases h0 : (n + 1) % 8 = 0
    · rw [accS1_reset V c n h h0]
      exact first_tile1 (V c main_arg1) (V c main_arg0) (iblk1 V c 0 ⟨n + 1, h⟩) (iblk1 V c 1 ⟨n + 1, h⟩) (n + 1) h0
        (fun b r d => iblk1_0_apply V c ⟨n + 1, h⟩ b r d) (fun b r d => iblk1_1_apply V c ⟨n + 1, h⟩ b r d) b r
    · rw [accS1_step V c n h h0]
      exact next_tile1 (V c main_arg1) (V c main_arg0) (iblk1 V c 0 ⟨n + 1, h⟩) (iblk1 V c 1 ⟨n + 1, h⟩)
        (accS1 V c n (Nat.lt_of_succ_lt h)) n h0
        (fun b r d => iblk1_0_apply V c ⟨n + 1, h⟩ b r d) (fun b r d => iblk1_1_apply V c ⟨n + 1, h⟩ b r d) b r
        (accS1_apply c n (Nat.lt_of_succ_lt h) b r)

/-- After a last key tile the scratch holds the nearest-neighbour distances of the query tile's 512 points. -/
theorem accS1_last (c : Dev nD) (n : ℕ) (h : n < cfg1.N) (h7 : n % 8 = 7) (b : Fin 8) (r : Fin 512) :
    accS1 V c n h (ix2 b r) = Cert.Chamfer.nn (V c main_arg1) (V c main_arg0) b (pt1 (512 * (n / 8) + r.val)) := by
  rw [accS1_apply V c n h b r, h7]
  exact Cert.Chamfer.iInf_all_blocks (fun m => Cert.Chamfer.dist (V c main_arg1) (V c main_arg0) b (pt1 (512 * (n / 8) + r.val)) m)

/-- What a last key tile's point writes back is its block of the nearest-neighbour array. -/
theorem flushed1_eq (c : Dev nD) (t : Fin cfg1.N) (hf : (cfg1.win 2).flush t = true) :
    (dat1 V c).flushed 2 t = ((cfg1.win 2).blk t).view.read (Elt Ideal) (Cert.Chamfer.nnArr (V c main_arg1) (V c main_arg0)) := by
  have h7 : t.val % 8 = 7 := (flush1_2 t).mp hf
  have ht : t.val < 64 := lt_of_lt_of_eq t.isLt N_1
  obtain ⟨-, -, -, -, -, -, e0, e1⟩ := idx1 t
  show (cfg1.win 2).cut (grid1.coords t) ((dat1 V c).after 2 t) = _
  rw [after1_2, outsAt1_fst V c t.val t.isLt h7]
  funext j
  have hj0 : (j 0).val < 8 := (j 0).isLt
  have hj1 : (j 1).val < 512 := (j 1).isLt
  have ej : (cfg1.win 2).xinj (grid1.coords t) j = ix2 (⟨(j 0).val, hj0⟩ : Fin 8) (⟨(j 1).val, hj1⟩ : Fin 512) :=
    funext fun a => match a with | ⟨0, _⟩ => rfl | ⟨1, _⟩ => rfl
  show accS1 V c t.val t.isLt ((cfg1.win 2).xinj (grid1.coords t) j)
    = Cert.Chamfer.nnArr (V c main_arg1) (V c main_arg0) (((cfg1.win 2).blk t).view.emb j)
  rw [ej]
  refine (accS1_last V c t.val t.isLt h7 _ _).trans ?_
  show Cert.Chamfer.nn (V c main_arg1) (V c main_arg0) ⟨(j 0).val, hj0⟩ (pt1 (512 * (t.val / 8) + (j 1).val))
    = Cert.Chamfer.nn (V c main_arg1) (V c main_arg0) ((((cfg1.win 2).blk t).view.emb j) 0) ((((cfg1.win 2).blk t).view.emb j) 1)
  refine congrArg₂ (Cert.Chamfer.nn (V c main_arg1) (V c main_arg0)) (Fin.ext ?_) (Fin.ext ?_)
  · show (j 0).val = win1_2.index t (0 : Fin 2) * 8 + 1 * (j 0).val
    rw [e0]; omega
  · show (512 * (t.val / 8) + (j 1).val) % 4096 = win1_2.index t (1 : Fin 2) * 512 + 1 * (j 1).val
    rw [e1]; omega

/-- Region 1 leaves the output array at the nearest-neighbour array of the second cloud against the first: row n of
    the output lies in the block written back at the last key tile of query tile n / 512. -/
theorem final1 (c : Dev nD) :
    (dat1 (F := Ideal) V c).arrAt 2 cfg1.N = Cert.Chamfer.nnArr (V c main_arg1) (V c main_arg0) :=
  (dat1 V c).arrAt_eq_of_cover 2 _ (flushed1_eq V c) fun i => by
    have hi0 : (i 0 : Nat) < 8 := (i 0).isLt
    have hi1 : (i 1 : Nat) < 4096 := (i 1).isLt
    have hN : cfg1.N = 64 := N_1
    let t : Fin cfg1.N := ⟨8 * ((i 1 : Nat) / 512) + 7, by rw [hN]; omega⟩
    have h7 : t.val % 8 = 7 := by show (8 * ((i 1 : Nat) / 512) + 7) % 8 = 7; omega
    have hq : t.val / 8 = (i 1 : Nat) / 512 := by show (8 * ((i 1 : Nat) / 512) + 7) / 8 = (i 1 : Nat) / 512; omega
    obtain ⟨-, -, -, -, -, -, e0, e1⟩ := idx1 t
    refine ⟨t, (flush1_2 t).mpr h7, ?_⟩
    show i ∈ ((View.whole main_v1).slice (win1_2.rect t)).set
    rw [View.set_slice_whole, Rect.mem_set_unit]
    intro a
    match a with
    | ⟨0, _⟩ =>
      show win1_2.index t (0 : Fin 2) * win1_2.size 0 ≤ (i 0 : Nat) ∧ (i 0 : Nat) < win1_2.index t (0 : Fin 2) * win1_2.size 0 + win1_2.xsize (grid1.coords t) 0
      rw [e0, show win1_2.size 0 = 8 from rfl, show win1_2.xsize (grid1.coords t) 0 = 8 from rfl]; omega
    | ⟨1, _⟩ =>
      show win1_2.index t (1 : Fin 2) * win1_2.size 1 ≤ (i 1 : Nat) ∧ (i 1 : Nat) < win1_2.index t (1 : Fin 2) * win1_2.size 1 + win1_2.xsize (grid1.coords t) 1
      rw [e1, hq, show win1_2.size 1 = 512 from rfl, show win1_2.xsize (grid1.coords t) 1 = 512 from rfl]; omega

end

end Cert.KernelIdeal.Val

end
-- ==== Proof.RefValue.lean ====
/-
  The reference program's result as mathematics over the extended reals.
  The reference forms, for two clouds x, y of shape [8, 4096, 3], the array
      D[b, n, m] = (|x[b,n]|² + |y[b,m]|²) − 2 · (x[b,n] · y[b,m]),
  takes its minimum over m (from +∞) and its minimum over n (from +∞), and adds the means of the two [8, 4096] arrays.
  Here: D at (b, n, m) is the expanded squared distance `dist x y b n m`; a minimum from +∞ over a finite axis is the
  infimum over that axis; hence the first array is the nearest-neighbour array of x against y, and, the distance being
  symmetric in its two points, the second is that of y against x. The closing arithmetic is the same on both sides.
-/
import proofs.«131507_j34351148433808_1_alg».proof.Proof.Gen.ReferenceIdeal.Read
import proofs.«131507_j34351148433808_1_alg».proof.Proof.SpecLoss

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Idealize.ShloMosaic.ValueIdx

/-! ## A minimum from +∞ over a finite axis is the infimum -/

/-- Over a finite type, folding `min` from the top element of the extended reals is the infimum of the family. -/
theorem fold_min_top_eq_iInf {ι : Type} [Fintype ι] (f : ι → EReal) :
    (Finset.univ : Finset ι).fold min (⊤ : EReal) f = ⨅ k, f k := by
  rw [← Finset.inf_univ_eq_iInf]
  rfl

/-- The f32 pattern 0x7F800000 is +∞, the top element. -/
theorem inf_pattern : Ideal.ofBits .f32 0x7F800000#32 = (⊤ : EReal) := by
  simp [Ideal.ofBits, Ideal.ieee]

/-! ## The distance array at an index -/

/-- The squared norms of x are broadcast along m: at (b, n, m) the summand index is (b, n, d). -/
theorem idx_sq_x (b : Fin 8) (n m : Fin 4096) (k : Fin 3) :
    idx_main_v1 (idx_main_v5 (idx_main_v7 (ix3 b n m))) k = ix3 b n k := by
  funext a; match a with | ⟨0, _⟩ => rfl | ⟨1, _⟩ => rfl | ⟨2, _⟩ => rfl

/-- The squared norms of y are broadcast along n: at (b, n, m) the summand index is (b, m, d). -/
theorem idx_sq_y (b : Fin 8) (n m : Fin 4096) (k : Fin 3) :
    idx_main_v3 (idx_main_v6 (idx_main_v8 (ix3 b n m))) k = ix3 b m k := by
  funext a; match a with | ⟨0, _⟩ => rfl | ⟨1, _⟩ => rfl | ⟨2, _⟩ => rfl

/-- The contraction reads x at (b, n, d) … -/
theorem idx_dot_l (b : Fin 8) (n m : Fin 4096) (k : Fin 3) : lidx_main_v4 (ix3 b n m) k = ix3 b n k := by
  funext a; match a with | ⟨0, _⟩ => rfl | ⟨1, _⟩ => rfl | ⟨2, _⟩ => rfl

/-- … and y at (b, m, d). -/
theorem idx_dot_r (b : Fin 8) (n m : Fin 4096) (k : Fin 3) : ridx_main_v4 (ix3 b n m) k = ix3 b m k := by
  funext a; match a with | ⟨0, _⟩ => rfl | ⟨1, _⟩ => rfl | ⟨2, _⟩ => rfl

/-- The reference's distance array at (b, n, m) is the expanded squared distance between point n of x and point m of y. -/
theorem dist_apply (x y : FVec Ideal S8x4096x3 .f32) (b : Fin 8) (n m : Fin 4096) :
    val_main_v12 (F := Ideal) x y (ix3 b n m) = Cert.Chamfer.dist x y b n m := by
  rw [val_main_v12_apply, val_main_v9_apply, val_main_v7_apply, val_main_v5_apply, val_main_v1_apply,
    val_main_v8_apply, val_main_v6_apply, val_main_v3_apply, val_main_v11_apply, val_main_v10_apply,
    val_main_cst_1_apply, val_main_v4_apply, val_main_cst_apply, val_main_cst_0_apply]
  simp only [val_main_v0_apply, val_main_v2_apply, idx_sq_x, idx_sq_y, idx_dot_l, idx_dot_r, Ideal.addf_def,
    Ideal.subf_def, Ideal.mulf_def, Ideal.ofBits_def, Ideal.ofBits_zero_f32, zero_add]
  rfl

/-! ## The two minima -/

/-- The index (b, n) of the result with coordinate k put back on the last axis is (b, n, k). -/
theorem lift_d2 (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  fin_cases c <;> rfl

/-- The index (b, m) of the result with coordinate k put back on the middle axis is (b, k, m). -/
theorem lift_d1 (h : S8x4096x4096.Reduces [1] S8x4096) (b : Fin 8) (m : Fin 4096) (k : Fin (S8x4096x4096.size 1)) :
    h.lift (ix2 b m) k = ix3 b (⟨k.val, k.isLt⟩ : Fin 4096) m := by
  funext c; apply Fin.ext
  fin_cases c <;> rfl

/-- The minimum from +∞ over the last axis of a [8, 4096, 4096] array, at (b, n), is the infimum over m of its entries (b, n, m). -/
theorem reduce_min_d2 (z : FVec Ideal S8x4096x4096 .f32) (b : Fin 8) (n : Fin 4096) :
    Host.reduce FloatOps.minimumf z (constant (F := Ideal) S_ .f32 0x7F800000#32) reducesTo_S8x4096x4096_S8x4096_d2 h_S_ (ix2 b n)
      = ⨅ m : Fin 4096, z (ix3 b n m) := by
  have h : S8x4096x4096.Reduces [2] S8x4096 := by decide
  rw [Host.reduce_eq_fold_single FloatOps.minimumf z _ reducesTo_S8x4096x4096_S8x4096_d2 h h_S_]
  have hf : (z ∘ h.lift (ix2 b n)) = fun k : Fin 4096 => z (ix3 b n k) := funext fun k => congrArg z (lift_d2 h b n k)
  refine Eq.trans ?_ (fold_min_top_eq_iInf fun k : Fin 4096 => z (ix3 b n k))
  rw [hf]
  exact congrArg (fun t => Finset.fold min t (fun k : Fin 4096 => z (ix3 b n k)) (Finset.univ : Finset (Fin 4096))) inf_pattern

/-- The minimum from +∞ over the middle axis, at (b, m), is the infimum over n of the entries (b, n, m). -/
theorem reduce_min_d1 (z : FVec Ideal S8x4096x4096 .f32) (b : Fin 8) (m : Fin 4096) :
    Host.reduce FloatOps.minimumf z (constant (F := Ideal) S_ .f32 0x7F800000#32) reducesTo_S8x4096x4096_S8x4096_d1 h_S_ (ix2 b m)
      = ⨅ n : Fin 4096, z (ix3 b n m) := by
  have h : S8x4096x4096.Reduces [1] S8x4096 := by decide
  rw [Host.reduce_eq_fold_single FloatOps.minimumf z _ reducesTo_S8x4096x4096_S8x4096_d1 h h_S_]
  have hf : (z ∘ h.lift (ix2 b m)) = fun k : Fin 4096 => z (ix3 b k m) := funext fun k => congrArg z (lift_d1 h b m k)
  refine Eq.trans ?_ (fold_min_top_eq_iInf fun k : Fin 4096 => z (ix3 b k m))
  rw [hf]
  exact congrArg (fun t => Finset.fold min t (fun k : Fin 4096 => z (ix3 b k m)) (Finset.univ : Finset (Fin 4096))) inf_pattern

/-- The minimum over m of the distance array is the nearest-neighbour array of x against y. -/
theorem min_d2_eq (x y : FVec Ideal S8x4096x3 .f32) : val_main_v13 (F := Ideal) x y = Cert.Chamfer.nnArr x y := by
  funext j
  obtain ⟨b, n, rfl⟩ : ∃ (b : Fin 8) (n : Fin 4096), j = ix2 b n := ⟨j 0, j 1, eq_ix2 j⟩
  unfold val_main_v13
  refine (reduce_min_d2 (val_main_v12 (F := Ideal) x y) b n).trans ?_
  show _ = Cert.Chamfer.nn x y b n
  unfold Cert.Chamfer.nn
  exact iInf_congr fun m => dist_apply x y b n m

/-- The minimum over n of the distance array is the nearest-neighbour array of y against x: the distance is symmetric. -/
theorem min_d1_eq (x y : FVec Ideal S8x4096x3 .f32) : val_main_v14 (F := Ideal) x y = Cert.Chamfer.nnArr y x := by
  funext j
  obtain ⟨b, m, rfl⟩ : ∃ (b : Fin 8) (m : Fin 4096), j = ix2 b m := ⟨j 0, j 1, eq_ix2 j⟩
  unfold val_main_v14
  refine (reduce_min_d1 (val_main_v12 (F := Ideal) x y) b m).trans ?_
  show _ = Cert.Chamfer.nn y x b m
  unfold Cert.Chamfer.nn
  exact iInf_congr fun n => (dist_apply x y b n m).trans (Cert.Chamfer.dist_swap x y b n m).symm

/-! ## The result -/

/-- The reference's last stage is the loss of the two nearest-neighbour arrays. -/
theorem result_val_eq (x y : FVec Ideal S8x4096x3 .f32) :
    val_main_v19 (F := Ideal) x y
      = Cert.Chamfer.loss reducesTo_S8x4096_S_d0_1 h_S_ (Cert.Chamfer.nnArr x y) (Cert.Chamfer.nnArr y x) := by
  unfold val_main_v19 val_main_v16 val_main_v18 val_main_v15 val_main_v17 val_main_cst_4 val_main_cst_5 val_main_cst_6
    val_main_cst_7 Cert.Chamfer.loss
  rw [min_d2_eq, min_d1_eq]

/-- The term the reference's run states for its result, with the two argument arrays named x and y, is the loss of the
    nearest-neighbour arrays of x against y and of y against x. -/
theorem result_eq (x y : FVec Ideal S8x4096x3 .f32) :
    addf (Host.divf (Host.reduceAdd (Host.reduce FloatOps.minimumf (subf (addf (broadcastInDim S8x4096x4096 ![0, 1, 2] bcast_S8x4096x1_S8x4096x4096_0_1_2 (broadcastInDim S8x4096x1 ![0, 1] bcast_S8x4096_S8x4096x1_0_1 (Host.reduceAdd (mulf x x) (constant S_ .f32 0x00000000#32) reducesTo_S8x4096x3_S8x4096_d2 h_S_))) (broadcastInDim S8x4096x4096 ![0, 1, 2] bcast_S8x1x4096_S8x4096x4096_0_1_2 (broadcastInDim S8x1x4096 ![0, 2] bcast_S8x4096_S8x1x4096_0_2 (Host.reduceAdd (mulf y y) (constant S_ .f32 0x00000000#32) reducesTo_S8x4096x3_S8x4096_d2 h_S_)))) (mulf (broadcastInDim S8x4096x4096 ![] bcast_S_S8x4096x4096 (constant S_ .f32 0x40000000#32)) (Host.dotGeneral dot_S8x4096x3_S8x4096x3_S8x4096x4096_2_2_1_1_0_0 none x y))) (constant S_ .f32 0x7F800000#32) reducesTo_S8x4096x4096_S8x4096_d2 h_S_) (constant S_ .f32 0x00000000#32) reducesTo_S8x4096_S_d0_1 h_S_) (constant S_ .f32 0x47000000#32)) (Host.divf (Host.reduceAdd (Host.reduce FloatOps.minimumf (subf (addf (broadcastInDim S8x4096x4096 ![0, 1, 2] bcast_S8x4096x1_S8x4096x4096_0_1_2 (broadcastInDim S8x4096x1 ![0, 1] bcast_S8x4096_S8x4096x1_0_1 (Host.reduceAdd (mulf x x) (constant S_ .f32 0x00000000#32) reducesTo_S8x4096x3_S8x4096_d2 h_S_))) (broadcastInDim S8x4096x4096 ![0, 1, 2] bcast_S8x1x4096_S8x4096x4096_0_1_2 (broadcastInDim S8x1x4096 ![0, 2] bcast_S8x4096_S8x1x4096_0_2 (Host.reduceAdd (mulf y y) (constant S_ .f32 0x00000000#32) reducesTo_S8x4096x3_S8x4096_d2 h_S_)))) (mulf (broadcastInDim S8x4096x4096 ![] bcast_S_S8x4096x4096 (constant S_ .f32 0x40000000#32)) (Host.dotGeneral dot_S8x4096x3_S8x4096x3_S8x4096x4096_2_2_1_1_0_0 none x y))) (constant S_ .f32 0x7F800000#32) reducesTo_S8x4096x4096_S8x4096_d1 h_S_) (constant S_ .f32 0x00000000#32) reducesTo_S8x4096_S_d0_1 h_S_) (constant S_ .f32 0x47000000#32))
      = Cert.Chamfer.loss reducesTo_S8x4096_S_d0_1 h_S_ (Cert.Chamfer.nnArr x y) (Cert.Chamfer.nnArr y x) :=
  (val_main_v19_eq (F := Ideal) x y).trans (result_val_eq x y)

end Cert.ReferenceIdeal.RefValue

end
-- ==== Proof.lean ====
/-
  The bidirectional nearest-neighbour (Chamfer) loss: a Pallas kernel that, for each tile of 512 query points, walks the
  eight tiles of 512 key points keeping a running minimum of |p|² + |q|² − 2 p·q in a scratch buffer (reset at the first
  key tile, copied to the output block at the last), called twice with the two clouds swapped, against the jnp reference
  that forms the whole [8, 4096, 4096] distance array and takes its minimum along either point axis; both then add the
  means of the two [8, 4096] arrays of minima.

  Over the extended reals the two are the same function of the clouds. A minimum over 4096 keys is the minimum of the eight
  tiles' minima, whatever the grouping; the first call's entries are the reference's entries in the same spelling, and the
  second call's differ only by the order of the two summands |q|² + |p|² and of the factors in each product q·p, and
  addition and multiplication of extended reals commute. No step uses that the inputs are finite.

  The three frames: each program runs to its end, faults nowhere and leaves its argument arrays unchanged — for the two
  kernel programs from the run of @main's three segments (two regions and the host operations after them), whose regions'
  proof data carry the scratch from point to point; for the reference from its run as a line of host operations. The
  idealization rewrote nothing, so there is nothing to preserve.
-/
import proofs.«131507_j34351148433808_1_alg».proof.Defs
import proofs.«131507_j34351148433808_1_alg».proof.Proof.Gen.Kernel
import proofs.«131507_j34351148433808_1_alg».proof.Proof.Gen.KernelIdeal
import proofs.«131507_j34351148433808_1_alg».proof.Proof.Gen.ReferenceIdeal
import proofs.«131507_j34351148433808_1_alg».proof.Proof.Gen.Pre_finite_inputs
import proofs.«131507_j34351148433808_1_alg».proof.Proof.Gen.ReferenceIdeal.Run
import proofs.«131507_j34351148433808_1_alg».proof.Proof.Gen.ReferenceIdeal.Read
import proofs.«131507_j34351148433808_1_alg».proof.Proof.FrKernel.Main
import proofs.«131507_j34351148433808_1_alg».proof.Proof.FrKernelIdeal.Main
import proofs.«131507_j34351148433808_1_alg».proof.Proof.ValKernelIdeal.Tail
import proofs.«131507_j34351148433808_1_alg».proof.Proof.ValKernelIdeal.Reg0Value
import proofs.«131507_j34351148433808_1_alg».proof.Proof.ValKernelIdeal.Reg1Value
import proofs.«131507_j34351148433808_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

section
open Cert.KernelIdeal Cert.KernelIdeal.Gen Cert.KernelIdeal.Fr

/-- The kernel program's result buffer at the end: mean + mean of the two nearest-neighbour arrays of the argument clouds. -/
theorem kernel_result (m : (ℓ : Loc nD τ sig) → Buf (Elt Ideal) ℓ) (c : Dev nD) :
    W5 m c (Proc.devRef .tc main_v6)
      = Cert.Chamfer.loss reducesTo_S8x4096_S_d0_1 h_S_
          (Cert.Chamfer.nnArr (m ((c : Thread nD τ).loc main_arg0)) (m ((c : Thread nD τ).loc main_arg1)))
          (Cert.Chamfer.nnArr (m ((c : Thread nD τ).loc main_arg1)) (m ((c : Thread nD τ).loc main_arg0))) := by
  rw [Cert.KernelIdeal.Val.W5_result, Cert.KernelIdeal.Val.W4_main_v0, Cert.KernelIdeal.Val.W4_main_v1,
    Cert.KernelIdeal.Val.final0, Cert.KernelIdeal.Val.final1, Cert.KernelIdeal.Val.V2_main_arg0, Cert.KernelIdeal.Val.V2_main_arg1]

end

/-- From memories agreeing on the two clouds both programs end with the same number in their result buffers. -/
theorem algebraic : Cert.algebraic_KernelIdeal_ReferenceIdeal := by
  intro m ρ m' ρ' _ hagree
  refine ⟨fun c => Cert.Chamfer.loss Cert.KernelIdeal.Facts₀.reducesTo_S8x4096_S_d0_1 Cert.KernelIdeal.Facts₀.h_S_
      (Cert.Chamfer.nnArr (m ((c : Thread Cert.KernelIdeal.nD Cert.KernelIdeal.τ).loc Cert.KernelIdeal.main_arg0)) (m ((c : Thread Cert.KernelIdeal.nD Cert.KernelIdeal.τ).loc Cert.KernelIdeal.main_arg1)))
      (Cert.Chamfer.nnArr (m ((c : Thread Cert.KernelIdeal.nD Cert.KernelIdeal.τ).loc Cert.KernelIdeal.main_arg1)) (m ((c : Thread Cert.KernelIdeal.nD Cert.KernelIdeal.τ).loc Cert.KernelIdeal.main_arg0))), ?_, ?_⟩
  · exact (θ_run Cert.KernelIdeal.defs _ _).mono (fun _ h c =>
      ⟨(h c _ (Cert.KernelIdeal.Fr.mem_uc Cert.KernelIdeal.main_v6 (by decide))).trans (kernel_result m c),
       (h c _ (Cert.KernelIdeal.Fr.mem_uc Cert.KernelIdeal.main_arg0 (by decide))).trans (Cert.KernelIdeal.Fr.W5_main_arg0 m c),
       (h c _ (Cert.KernelIdeal.Fr.mem_uc Cert.KernelIdeal.main_arg1 (by decide))).trans (Cert.KernelIdeal.Fr.W5_main_arg1 m c)⟩)
      (Cert.KernelIdeal.Fr.run_all m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
